-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x600000 : Shape := ⟨2, ![2, 600000]⟩
abbrev S512x128 : Shape := ⟨2, ![512, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x1 .f32) (main_arg13 : FVec F S1 .f32) (main_arg14 : FVec F S1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg15 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128x1 .f32) (main_arg13 : FVec F S1 .f32) (main_arg14 : FVec F S1 .f32) (main_arg15 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_arg14 : FVec F S1 .f32) (main_arg15 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x512 .f32) (main_arg1 : IVec S2x600000 32) (main_arg2 : FVec F S512x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_arg14 : FVec F S1 .f32) (main_arg15 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x512 : Shape := ⟨2, ![50000, 512]⟩
abbrev S2x600000 : Shape := ⟨2, ![2, 600000]⟩
abbrev S512x128 : Shape := ⟨2, ![512, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S50000x128 : Shape := ⟨2, ![50000, 128]⟩
abbrev S2000x512 : Shape := ⟨2, ![2000, 512]⟩
abbrev S2000x128 : Shape := ⟨2, ![2000, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S2000x1 : Shape := ⟨2, ![2000, 1]⟩
abbrev S1x1 : Shape := ⟨2, ![1, 1]⟩

abbrev nBuf : Space → Nat
  | .hbm => 79
  | .vmem => 32
  | .smem => 0
  | _ => 0

abbrev bufTy : (tb : Table) → Fin (tcTables nBuf tb) → BufTy
  | .hbm, ⟨0, _⟩ => ⟨S50000x512, .f32⟩
  | .hbm, ⟨1, _⟩ => ⟨S2x600000, .i32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S50000x128, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S_, .f32⟩
  | .hbm, ⟨31, _⟩ => ⟨S50000x128, .f32⟩
  | .hbm, ⟨32, _⟩ => ⟨S600000x1, .i32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S600000, .i32⟩
  | .hbm, ⟨37, _⟩ => ⟨S600000, .i1⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S600000x1, .i32⟩
  | .hbm, ⟨43, _⟩ => ⟨S600000x128, .f32⟩
  | .hbm, ⟨44, _⟩ => ⟨S_, .f32⟩
  | .hbm, ⟨45, _⟩ => ⟨S50000x128, .f32⟩
  | .hbm, ⟨46, _⟩ => ⟨S600000x1, .i32⟩
  | .hbm, ⟨47, _⟩ => ⟨S50000x128, .f32⟩
  | .hbm, ⟨48, _⟩ => ⟨S50000x128, .f32⟩
  | .hbm, ⟨49, _⟩ => ⟨S50000x1, .f32⟩
  | .hbm, ⟨50, _⟩ => ⟨S_, .f32⟩
  | .hbm, ⟨51, _⟩ => ⟨S1, .f32⟩
  | .hbm, ⟨52, _⟩ => ⟨S1x1, .f32⟩
  | .hbm, ⟨53, _⟩ => ⟨S_, .f32⟩
  | .hbm, ⟨54, _⟩ => ⟨S1x1, .f32⟩
  | .hbm, ⟨55, _⟩ => ⟨S1x1, .f32⟩
  | .hbm, ⟨56, _⟩ => ⟨S50000x1, .f32⟩
  | .hbm, ⟨57, _⟩ => ⟨S50000x1, .f32⟩
  | .hbm, ⟨58, _⟩ => ⟨S50000x1, .f32⟩
  | .hbm, ⟨59, _⟩ => ⟨S_, .f32⟩
  | .hbm, ⟨60, _⟩ => ⟨S1, .f32⟩
  | .hbm, ⟨61, _⟩ => ⟨S1x1, .f32⟩
  | .hbm, ⟨62, _⟩ => ⟨S_, .f32⟩
  | .hbm, ⟨63, _⟩ => ⟨S1x1, .f32⟩
  | .hbm, ⟨64, _⟩ => ⟨S1x1, .f32⟩
  | .hbm, ⟨65, _⟩ => ⟨S50000x1, .f32⟩
  | .hbm, ⟨66, _⟩ => ⟨S50000x1, .f32⟩
  | .hbm, ⟨67, _⟩ => ⟨S_, .f32⟩
  | .hbm, ⟨68, _⟩ => ⟨S1x1, .f32⟩
  | .hbm, ⟨69, _⟩ => ⟨S1x1, .f32⟩
  | .hbm, ⟨70, _⟩ => ⟨S1x1, .f32⟩
  | .hbm, ⟨71, _⟩ => ⟨S50000x1, .f32⟩
  | .hbm, ⟨72, _⟩ => ⟨S50000x1, .f32⟩
  | .hbm, ⟨73, _⟩ => ⟨S1x1, .f32⟩
  | .hbm, ⟨74, _⟩ => ⟨S50000x1, .f32⟩
  | .hbm, ⟨75, _⟩ => ⟨S50000x1, .f32⟩
  | .hbm, ⟨76, _⟩ => ⟨S1x1, .f32⟩
  | .hbm, ⟨77, _⟩ => ⟨S50000x1, .f32⟩
  | .hbm, ⟨78, _⟩ => ⟨S50000x1, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S128, .f32⟩
  | .local _ .vmem, ⟨22, _⟩ => ⟨S128x128, .f32⟩
  | .local _ .vmem, ⟨23, _⟩ => ⟨S128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x1, .f32⟩
  | .local _ .vmem, ⟨29, _⟩ => ⟨S1, .f32⟩
  | .local _ .vmem, ⟨30, _⟩ => ⟨S2000x1, .f32⟩
  | .local _ .vmem, ⟨31, _⟩ => ⟨S2000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  reducesTo_S50000x1_S1_d0 : S50000x1.ReducesTo [0] S1
  h_S_ : 0 < S_.numel
  bcast_S1_S1x1_1 : S1.BroadcastsInDim S1x1 (![1] : Fin 1 → Fin S1x1.rank)
  bcast_S_S1x1 : S_.BroadcastsInDim S1x1 (![] : Fin 0 → Fin S1x1.rank)
  bcast_S1x1_S50000x1_0_1 : S1x1.BroadcastsInDim S50000x1 (![0, 1] : Fin 2 → Fin S50000x1.rank)
  dot_S2000x512_S512x128_S2000x128_1_0_0_1_n_n_wf : DotDims.WF S2000x512 S512x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1.size a ≤ S128x1.size a
  hwx3_1 : ∀ i : grid3.Coords, EltTy.bits .f32 = 32 ∨ (Rect.block (s := S128x1) S128x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1.size a ≤ S1.size a
  hwx3_2 : ∀ i : grid3.Coords, EltTy.bits .f32 = 32 ∨ (Rect.block (s := S1) S1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .f32 = 32 ∨ (Rect.block (s := S50000x1) S2000x1.size (cc3_transform_3 i) (hinb3_3 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v15) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v26) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v26) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S128x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27) S2000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x600000 : Shape := ⟨2, ![2, 600000]⟩
abbrev S512x128 : Shape := ⟨2, ![512, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S50000x128 : Shape := ⟨2, ![50000, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x1 : Shape := ⟨2, ![1, 1]⟩

abbrev nBuf : Space → Nat
  | .hbm => 110
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x600000, .i32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x128, .f32⟩
  | .hbm, ⟨61, _⟩ => ⟨S_, .f32⟩
  | .hbm, ⟨62, _⟩ => ⟨S50000x128, .f32⟩
  | .hbm, ⟨63, _⟩ => ⟨S600000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S50000x1, .f32⟩
  | .hbm, ⟨78, _⟩ => ⟨S1x1, .f32⟩
  | .hbm, ⟨79, _⟩ => ⟨S50000x1, .f32⟩
  | .hbm, ⟨80, _⟩ => ⟨S50000x1, .f32⟩
  | .hbm, ⟨81, _⟩ => ⟨S_, .f32⟩
  | .hbm, ⟨82, _⟩ => ⟨S1, .f32⟩
  | .hbm, ⟨83, _⟩ => ⟨S1x1, .f32⟩
  | .hbm, ⟨84, _⟩ => ⟨S_, .f32⟩
  | .hbm, ⟨85, _⟩ => ⟨S1x1, .f32⟩
  | .hbm, ⟨86, _⟩ => ⟨S1x1, .f32⟩
  | .hbm, ⟨87, _⟩ => ⟨S50000x1, .f32⟩
  | .hbm, ⟨88, _⟩ => ⟨S50000x1, .f32⟩
  | .hbm, ⟨89, _⟩ => ⟨S50000x1, .f32⟩
  | .hbm, ⟨90, _⟩ => ⟨S_, .f32⟩
  | .hbm, ⟨91, _⟩ => ⟨S1, .f32⟩
  | .hbm, ⟨92, _⟩ => ⟨S1x1, .f32⟩
  | .hbm, ⟨93, _⟩ => ⟨S_, .f32⟩
  | .hbm, ⟨94, _⟩ => ⟨S1x1, .f32⟩
  | .hbm, ⟨95, _⟩ => ⟨S1x1, .f32⟩
  | .hbm, ⟨96, _⟩ => ⟨S50000x1, .f32⟩
  | .hbm, ⟨97, _⟩ => ⟨S50000x1, .f32⟩
  | .hbm, ⟨98, _⟩ => ⟨S_, .f32⟩
  | .hbm, ⟨99, _⟩ => ⟨S1x1, .f32⟩
  | .hbm, ⟨100, _⟩ => ⟨S1x1, .f32⟩
  | .hbm, ⟨101, _⟩ => ⟨S1x1, .f32⟩
  | .hbm, ⟨102, _⟩ => ⟨S50000x1, .f32⟩
  | .hbm, ⟨103, _⟩ => ⟨S50000x1, .f32⟩
  | .hbm, ⟨104, _⟩ => ⟨S1x1, .f32⟩
  | .hbm, ⟨105, _⟩ => ⟨S50000x1, .f32⟩
  | .hbm, ⟨106, _⟩ => ⟨S50000x1, .f32⟩
  | .hbm, ⟨107, _⟩ => ⟨S1x1, .f32⟩
  | .hbm, ⟨108, _⟩ => ⟨S50000x1, .f32⟩
  | .hbm, ⟨109, _⟩ => ⟨S50000x1, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_cst : Ref sig .tc := ⟨.hbm, 24, rfl⟩
abbrev main_call0_v0 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_1 : Ref sig .tc := ⟨.hbm, 52, rfl⟩
abbrev main_v29 : Ref sig .tc := ⟨.hbm, 53, rfl⟩
abbrev main_v30 : Ref sig .tc := ⟨.hbm, 54, rfl⟩
abbrev main_c_2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call2_cst : Ref sig .tc := ⟨.hbm, 70, rfl⟩
abbrev main_call2_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_4 : Ref sig .tc := ⟨.hbm, 81, rfl⟩
abbrev main_v53 : Ref sig .tc := ⟨.hbm, 82, rfl⟩
abbrev main_v54 : Ref sig .tc := ⟨.hbm, 83, rfl⟩
abbrev main_cst_5 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_6 : Ref sig .tc := ⟨.hbm, 90, rfl⟩
abbrev main_v60 : Ref sig .tc := ⟨.hbm, 91, rfl⟩
abbrev main_v61 : Ref sig .tc := ⟨.hbm, 92, rfl⟩
abbrev main_cst_7 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_8 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S1_d0 : S50000x1.ReducesTo [0] S1
  h_S_ : 0 < S_.numel
  bcast_S_S1x1 : S_.BroadcastsInDim S1x1 (![] : Fin 0 → Fin S1x1.rank)
  dot_S50000x512_S512x128_S50000x128_1_0_0_1_n_n_wf : DotDims.WF S50000x512 S512x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelResult.lean ====
/-
  The idealized kernel program's run with its RESULT in the post.

  The program is four launches among stretches of host operations. Its frame certificate proves that every weakly fair
  execution terminates with the argument arrays unchanged, and, on the way, that at the end every unscoped buffer holds
  what the fold `W8` of the host stretches and the launches' write-backs over the launch memory holds. The theorem below
  states the same run once more with one more conjunct read off that fold: the result buffer ends at `W8 … main_v51`.
  What that value is, as a function of the arguments, is the business of the modules that read the fold.
-/
import proofs.«128205_j12953621365187_2_alg».proof.Proof.KernelIdealFrameP

set_option maxRecDepth 16384

noncomputable section

namespace Cert.KernelIdeal.Result

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v51) = W8 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v51 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.Result

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibDenseRows.lean ====
/-
  A dense layer x ↦ x·W + b and a ReLU, read row by row on the extended reals, for any extents.

  A matrix [M, N] is taken apart into its rows (`rows v r : Fin N → EReal`). On rows,
  `matvec W x` is the row vector x·W (entry e is ∑ k, x k · W k e), `dense W b x` adds the bias b to it, and
  `relu x` is the entrywise maximum with 0. The lemmas below read the vector operations a kernel body spells such a layer
  with, row by row: a plain [M, K] × [K, N] matrix product into the zero accumulator is `matvec` of each row of the
  left operand; adding a [1, N] row broadcast over the M rows adds that one row to every row; the maximum with the splat
  of the zero word is `relu` of every row; a change of float format is the identity. No finiteness is used anywhere:
  every statement is an equation between the same sums and maxima of extended reals, term by term.
-/
import Idealize.ShloMosaic.Lib.ValueIdx
import Idealize.ShloMosaic.Lib.ValueLayout
import Idealize.ShloMosaic.PureOps.Ideal.Laws
import proofs.«128205_j12953621365187_2_alg».proof.Proof.LibPlainMatmul

noncomputable section

namespace Cert.LibDenseRows

open Idealize.ShloMosaic Idealize.ShloMosaic.ValueIdx

/-! ## Rows, and the layer on a row -/

/-- Row `r` of an [M, N] matrix, as a function of the column. -/
def rows {M N : ℕ} (v : (⟨2, ![M, N]⟩ : Shape).Idx → EReal) (r : Fin M) : Fin N → EReal := fun e => v (ix2 r e)

theorem rows_apply {M N : ℕ} (v : (⟨2, ![M, N]⟩ : Shape).Idx → EReal) (r : Fin M) (e : Fin N) :
    rows v r e = v (ix2 r e) := rfl

/-- A rank-1 array [N] as a function of its one coordinate. -/
def vec {N : ℕ} (b : (⟨1, ![N]⟩ : Shape).Idx → EReal) : Fin N → EReal := fun e => b (ix1 e)

/-- The row vector x·W: entry `e` is ∑ k, x k · W k e. -/
def matvec {K N : ℕ} (W : Fin K → Fin N → EReal) (x : Fin K → EReal) : Fin N → EReal := fun e => ∑ k : Fin K, x k * W k e

/-- A dense layer on a row: x·W + b. -/
def dense {K N : ℕ} (W : Fin K → Fin N → EReal) (b : Fin N → EReal) (x : Fin K → EReal) : Fin N → EReal :=
  fun e => matvec W x e + b e

/-- ReLU on a row: the entrywise maximum with 0. -/
def relu {N : ℕ} (x : Fin N → EReal) : Fin N → EReal := fun e => max (x e) 0

/-! ## A kernel body's vector operations, row by row -/

/-- A plain [M, K] × [K, N] product into the zero accumulator: row `r` of the product is row `r` of the left operand
    times the right operand. -/
theorem rows_matmul_zero {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (matmul d prec x w (constant (F := Ideal) ⟨2, ![M, N]⟩ .f32 0x00000000#32)) r = matvec (rows w) (rows x r) :=
  funext fun e => matmul_plain_zero_apply d hd prec x w r e

/-- Adding a [1, N] row broadcast over the M rows adds that row to every row. -/
theorem rows_add_broadcast_row {M N : ℕ} {φ : FTy} (u : FVec Ideal ⟨2, ![M, N]⟩ φ) (b : FVec Ideal ⟨2, ![1, N]⟩ φ)
    (h : (⟨2, ![1, N]⟩ : Shape).Broadcasts ⟨2, ![M, N]⟩) (r : Fin M) :
    rows (addf u (broadcastTo ⟨2, ![M, N]⟩ b h)) r = fun e => rows u r e + rows b 0 e :=
  funext fun e => by
    show u (ix2 r e) + broadcastTo ⟨2, ![M, N]⟩ b h (ix2 r e) = u (ix2 r e) + b (ix2 (0 : Fin 1) e)
    rw [broadcastTo_1b_ab_apply]

/-- The maximum with the splat of the zero word is ReLU of every row. -/
theorem rows_max_zero {M N : ℕ} (v : FVec Ideal ⟨2, ![M, N]⟩ .f32) (r : Fin M) :
    rows (maximumf v (broadcast ⟨2, ![M, N]⟩ (Scalar.ofBits (F := Ideal) .f32 0x00000000#32))) r = relu (rows v r) :=
  funext fun e => by
    show max (v (ix2 r e)) (Ideal.ofBits .f32 0x00000000#32) = max (v (ix2 r e)) 0
    rw [Ideal.ofBits_zero_f32]

/-- A narrowing of the float format is the identity on the extended reals. -/
theorem truncf_eq {s : Shape} {φ ψ : FTy} (a : FVec Ideal s φ) (h : ψ.bits < φ.bits) : (truncf ψ a h : FVec Ideal s ψ) = a := rfl

/-- The kernel's whole layer: a plain product into the zero accumulator plus a broadcast bias row is `dense` of every
    row. -/
theorem rows_matmul_bias {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (r : Fin M) :
    rows (addf (matmul d prec x w (constant (F := Ideal) ⟨2, ![M, N]⟩ .f32 0x00000000#32)) (broadcastTo ⟨2, ![M, N]⟩ b h)) r
      = dense (rows w) (rows b 0) (rows x r) :=
  (rows_add_broadcast_row _ b h r).trans (funext fun e => by
    show rows (matmul d prec x w (constant (F := Ideal) ⟨2, ![M, N]⟩ .f32 0x00000000#32)) r e + rows b 0 e = matvec (rows w) (rows x r) e + rows b 0 e
    rw [rows_matmul_zero d hd prec x w r])

end Cert.LibDenseRows

end
-- ==== Proof.Spec.lean ====
/-
  The mathematics both programs compute, stated once, on the extended reals.

  A node feature matrix [50000, 512] goes through a head layer, two graph-isomorphism layers and a tail projection, and
  the resulting column [50000, 1] is batch-normalised over the nodes:

      x0 = relu (feature · headW + headb)
      x1 = relu ((x0 + agg x0) · W1 + b1) · W2 + b2          (layer 1)
      x2 = relu ((x1 + agg x1) · W3 + b3) · W4 + b4          (layer 2)
      z  = x2 · tailW + tailb
      out = (z - mean z) · rsqrt (var z + ε) · γ + β,

  where agg x sums, into every node, the rows of x at the sources of the edges that end in that node (a row gather at the
  wrapped source column followed by a scatter-add at the target column).

  Every dense layer is ROW-LOCAL: row r of the result depends on row r of the input only. That is what lets a kernel
  compute the layer 2000 rows at a time while the reference computes it on the whole matrix: both hold, at row r,
  the same sums and maxima of the same extended reals, term by term, so no finiteness is ever needed. The aggregation and
  the normalisation are not row-local, and both programs spell them with the same host operations; they are named here
  (`Agg`, `Norm`) as those operations' composition and never opened.
-/
import Idealize.ShloMosaic.Lib.ValueIdx
import Idealize.ShloMosaic.Lib.ValueLayout
import Idealize.ShloMosaic.PureOps.Ideal.Laws
import proofs.«128205_j12953621365187_2_alg».proof.Proof.LibDenseRows

noncomputable section

namespace Cert.GinSpec

open Idealize.ShloMosaic Idealize.ShloMosaic.ValueIdx Cert.LibDenseRows

/-- A matrix of extended reals. -/
abbrev Mat (M N : ℕ) := (⟨2, ![M, N]⟩ : Shape).Idx → EReal
/-- A vector of extended reals. -/
abbrev Vec1 (N : ℕ) := (⟨1, ![N]⟩ : Shape).Idx → EReal

/-! ## A matrix from its rows -/

/-- The matrix whose row `r` is `R r`. -/
def ofRows {M N : ℕ} (R : Fin M → Fin N → EReal) : Mat M N := fun i => R (i 0) (i 1)

theorem rows_ofRows {M N : ℕ} (R : Fin M → Fin N → EReal) (r : Fin M) : rows (ofRows R) r = R r := rfl

/-- A matrix is determined by its rows. -/
theorem eq_ofRows {M N : ℕ} {v : Mat M N} {R : Fin M → Fin N → EReal} (h : ∀ r, rows v r = R r) : v = ofRows R :=
  funext fun i => (congrArg v (eq_ix2 i)).trans (congrFun (h (i 0)) (i 1))

/-- Two matrices with the same rows are equal. -/
theorem ext_rows {M N : ℕ} {v w : Mat M N} (h : ∀ r, rows v r = rows w r) : v = w :=
  funext fun i => (congrArg v (eq_ix2 i)).trans ((congrFun (h (i 0)) (i 1)).trans (congrArg w (eq_ix2 i)).symm)

/-! ## The row-local layers, for any number of rows -/

/-- x ↦ x · W + b, row by row. -/
def denseA {M K N : ℕ} (x : Mat M K) (W : Mat K N) (b : Vec1 N) : Mat M N :=
  ofRows fun r => dense (rows W) (vec b) (rows x r)

/-- The entrywise maximum with 0, row by row. -/
def reluA {M N : ℕ} (x : Mat M N) : Mat M N := ofRows fun r => relu (rows x r)

/-- The entrywise sum. -/
def addA {M N : ℕ} (x y : Mat M N) : Mat M N := ofRows fun r e => rows x r e + rows y r e

theorem rows_denseA {M K N : ℕ} (x : Mat M K) (W : Mat K N) (b : Vec1 N) (r : Fin M) :
    rows (denseA x W b) r = dense (rows W) (vec b) (rows x r) := rfl
theorem rows_reluA {M N : ℕ} (x : Mat M N) (r : Fin M) : rows (reluA x) r = relu (rows x r) := rfl
theorem rows_addA {M N : ℕ} (x y : Mat M N) (r : Fin M) : rows (addA x y) r = fun e => rows x r e + rows y r e := rfl

/-- The head layer: relu (x · W + b). -/
def Head {M : ℕ} (x : Mat M 512) (W : Mat 512 128) (b : Vec1 128) : Mat M 128 := reluA (denseA x W b)

/-- One graph-isomorphism layer after its aggregation: relu ((x + a) · W1 + b1) · W2 + b2. -/
def Gin {M : ℕ} (x a : Mat M 128) (W1 : Mat 128 128) (b1 : Vec1 128) (W2 : Mat 128 128) (b2 : Vec1 128) : Mat M 128 :=
  denseA (reluA (denseA (addA x a) W1 b1)) W2 b2

/-- The tail projection: x · W + b. -/
def Tail {M : ℕ} (x : Mat M 128) (W : Mat 128 1) (b : Vec1 1) : Mat M 1 := denseA x W b

/-- Row `r` of a row-local layer of a matrix whose row `r` is row `r'` of another is row `r'` of the layer of the other:
    the three layers below read only the one row. -/
theorem rows_Head {M M' : ℕ} (x : Mat M 512) (x' : Mat M' 512) (W : Mat 512 128) (b : Vec1 128) (r : Fin M) (r' : Fin M')
    (h : rows x r = rows x' r') : rows (Head x W b) r = rows (Head x' W b) r' := by
  show relu (dense (rows W) (vec b) (rows x r)) = relu (dense (rows W) (vec b) (rows x' r'))
  rw [h]

theorem rows_Gin {M M' : ℕ} (x a : Mat M 128) (x' a' : Mat M' 128) (W1 : Mat 128 128) (b1 : Vec1 128) (W2 : Mat 128 128)
    (b2 : Vec1 128) (r : Fin M) (r' : Fin M') (hx : rows x r = rows x' r') (ha : rows a r = rows a' r') :
    rows (Gin x a W1 b1 W2 b2) r = rows (Gin x' a' W1 b1 W2 b2) r' := by
  show dense (rows W2) (vec b2) (relu (dense (rows W1) (vec b1) (fun e => rows x r e + rows a r e)))
    = dense (rows W2) (vec b2) (relu (dense (rows W1) (vec b1) (fun e => rows x' r' e + rows a' r' e)))
  rw [hx, ha]

theorem rows_Tail {M M' : ℕ} (x : Mat M 128) (x' : Mat M' 128) (W : Mat 128 1) (b : Vec1 1) (r : Fin M) (r' : Fin M')
    (h : rows x r = rows x' r') : rows (Tail x W b) r = rows (Tail x' W b) r' := by
  show dense (rows W) (vec b) (rows x r) = dense (rows W) (vec b) (rows x' r')
  rw [h]

/-! ## The aggregation over the edges and the normalisation over the nodes: the host operations both programs spell -/

abbrev SNxD : Shape := ⟨2, ![50000, 128]⟩
abbrev SNx1 : Shape := ⟨2, ![50000, 1]⟩
abbrev S2xE : Shape := ⟨2, ![2, 600000]⟩
abbrev S1xE : Shape := ⟨2, ![1, 600000]⟩
abbrev SE : Shape := ⟨1, ![600000]⟩
abbrev SEx1 : Shape := ⟨2, ![600000, 1]⟩
abbrev SExD : Shape := ⟨2, ![600000, 128]⟩
abbrev S0 : Shape := ⟨0, ![]⟩
abbrev Sone : Shape := ⟨1, ![1]⟩
abbrev S1x1 : Shape := ⟨2, ![1, 1]⟩

/-- Whole rows of a [50000, 128] matrix taken at a column of start words. -/
def gatherRows : GatherDims SNxD SEx1 SExD where
  offsetDims := [1]
  collapsedSliceDims := [0]
  operandBatchingDims := []
  startIndicesBatchingDims := []
  startIndexMap := [0]
  indexVectorDim := 1
  sliceSizes := ![1, 128]
  wf := by decide

/-- Whole rows added into a [50000, 128] matrix at a column of target words. -/
def scatterRows : ScatterDims SNxD SEx1 SExD where
  updateWindowDims := [1]
  insertedWindowDims := [0]
  scatterDimsToOperandDims := [0]
  indexVectorDim := 1
  wf := by decide

/-- Row 0 of the edge list: the sources. -/
def srcOf (edge : IVec S2xE 32) : IVec SE 32 :=
  shapeCast SE (extractStridedSlice S1xE ![0, 0] edge (by decide)) (by decide)

/-- Row 1 of the edge list: the targets. -/
def dstOf (edge : IVec S2xE 32) : IVec SE 32 :=
  shapeCast SE (extractStridedSlice S1xE ![1, 0] edge (by decide)) (by decide)

/-- agg x: a negative source word is wrapped by 50000, the rows of `x` at the sources are gathered, and added into the zero
    matrix at the targets. -/
def Agg (x : FVec Ideal SNxD .f32) (src dst : IVec SE 32) : FVec Ideal SNxD .f32 :=
  Host.scatterAdd (F := Ideal) scatterRows
    (broadcastInDim SNxD ![] (by decide) (constant (F := Ideal) S0 .f32 0x00000000#32))
    (broadcastInDim SEx1 ![0] (by decide) dst)
    (Host.gather gatherRows x
      (broadcastInDim SEx1 ![0] (by decide)
        (select (cmpi .slt src (broadcastInDim SE ![] (by decide) (constantI S0 32 0#32)))
          (addi src (broadcastInDim SE ![] (by decide) (constantI S0 32 50000#32))) src)))

/-- The mean of a column over its 50000 entries, as a [1, 1] matrix: the sum from the zero word, divided by 50000. -/
def meanCol (z : FVec Ideal SNx1 .f32) : FVec Ideal S1x1 .f32 :=
  Host.divf (F := Ideal)
    (broadcastInDim S1x1 ![1] (by decide)
      (Host.reduceAdd (F := Ideal) (axes := [0]) (t := Sone) z (constant (F := Ideal) S0 .f32 0x00000000#32) (by decide) (by decide)))
    (broadcastInDim S1x1 ![] (by decide) (constant (F := Ideal) S0 .f32 0x47435000#32))

/-- Batch normalisation of a column over the nodes: (z - μ) · rsqrt (σ² + ε) · γ + β with the biased variance. -/
def Norm (z : FVec Ideal SNx1 .f32) (γ β : FVec Ideal Sone .f32) : FVec Ideal SNx1 .f32 :=
  addf (F := Ideal)
    (mulf (F := Ideal)
      (mulf (F := Ideal)
        (subf (F := Ideal) z (broadcastInDim SNx1 ![0, 1] (by decide) (meanCol z)))
        (broadcastInDim SNx1 ![0, 1] (by decide)
          (Host.rsqrt (F := Ideal)
            (addf (F := Ideal)
              (meanCol (mulf (F := Ideal)
                (subf (F := Ideal) z (broadcastInDim SNx1 ![0, 1] (by decide) (meanCol z)))
                (subf (F := Ideal) z (broadcastInDim SNx1 ![0, 1] (by decide) (meanCol z)))))
              (broadcastInDim S1x1 ![] (by decide) (constant (F := Ideal) S0 .f32 0x3727C5AC#32))))))
      (broadcastInDim SNx1 ![0, 1] (by decide) (broadcastInDim S1x1 ![1] (by decide) γ)))
    (broadcastInDim SNx1 ![0, 1] (by decide) (broadcastInDim S1x1 ![1] (by decide) β))

/-! ## The whole network -/

/-- What both programs return, as one function of the sixteen argument arrays. -/
def Net (feature : Mat 50000 512) (edge : IVec S2xE 32) (headW : Mat 512 128) (headb : Vec1 128)
    (W1 : Mat 128 128) (b1 : Vec1 128) (W2 : Mat 128 128) (b2 : Vec1 128)
    (W3 : Mat 128 128) (b3 : Vec1 128) (W4 : Mat 128 128) (b4 : Vec1 128)
    (tailW : Mat 128 1) (tailb γ β : Vec1 1) : Mat 50000 1 :=
  let x0 := Head feature headW headb
  let x1 := Gin x0 (Agg x0 (srcOf edge) (dstOf edge)) W1 b1 W2 b2
  let x2 := Gin x1 (Agg x1 (srcOf edge) (dstOf edge)) W3 b3 W4 b4
  Norm (Tail x2 tailW tailb) γ β

end Cert.GinSpec

end
-- ==== Proof.LibHostDenseRows.lean ====
/-
  A dense layer x ↦ x·W + b and a ReLU as a host program spells them, read row by row on the extended reals, for any
  extents.

  On the host the layer is a `dot_general` of an [M, K] matrix with a [K, N] matrix contracted row by column, plus a
  bias vector [N] broadcast first to one row [1, N] and then over the M rows; the ReLU is the entrywise maximum with
  the zero constant broadcast to the whole matrix. On the extended reals the product's entry (r, e) is
  ∑ k < K, x[r, k] · W[k, e] with nothing else added, so row r of the layer is `dense W b` of row r of x, and the
  maximum is `relu` of every row: the same sums and maxima, term by term, with no finiteness used. The last lemma
  reads a vector [N] recast as the one row of a [1, N] matrix, which is how a kernel body spells the same bias.
-/
import Idealize.ShloMosaic.Lib.ValueIdx
import Idealize.ShloMosaic.Lib.ValueLayout
import Idealize.ShloMosaic.Lib.Pipeline.Value
import Idealize.ShloMosaic.PureOps.Ideal.Laws
import proofs.«128205_j12953621365187_2_alg».proof.Proof.LibDenseRows

noncomputable section

namespace Cert.LibHostDenseRows

open Idealize.ShloMosaic Idealize.ShloMosaic.ValueIdx Cert.LibDenseRows

/-- Entry (r, e) of a plain host product [M, K] × [K, N] is ∑ k, lhs[r, k] · rhs[k, e]. The dimension record may be
    any record equal to the plain one. -/
theorem hostDot_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    Host.dotGeneral (F := Ideal) d prec lhs rhs (ix2 r e) = ∑ k : Fin K, lhs (ix2 r k) * rhs (ix2 k e) := by
  subst hd
  show FloatOps.dotGeneral (DotDims.plain M K N) prec .single lhs rhs (ix2 r e) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

/-- Row `r` of a plain host product is row `r` of the left operand times the right operand. -/
theorem rows_hostDot {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (Host.dotGeneral (F := Ideal) d prec x w) r = matvec (rows w) (rows x r) :=
  funext fun e => hostDot_plain_apply d hd prec x w r e

/-- A vector [N] broadcast to one row [1, N] and that row over M rows: every row is the vector. -/
theorem rows_broadcast_vec {M N : ℕ} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (broadcastInDim ⟨2, ![M, N]⟩ ![0, 1] h2 (broadcastInDim ⟨2, ![1, N]⟩ ![1] h1 b)) r = vec b :=
  funext fun e => by
    show broadcastInDim ⟨2, ![M, N]⟩ ![0, 1] h2 (broadcastInDim ⟨2, ![1, N]⟩ ![1] h1 b) (ix2 r e) = b (ix1 e)
    rw [broadcastInDim_apply ![0, 1] h2 _ (ix2 r e) (ix2 (0 : Fin 1) e) (fun a => by
      match a with
      | ⟨0, _⟩ => show (0 : ℕ) = if (1 : ℕ) = 1 then 0 else r.val; rw [if_pos rfl]
      | ⟨1, _⟩ =>
        show e.val = if N = 1 then 0 else e.val
        split
        · have := e.isLt; omega
        · rfl)]
    exact broadcastInDim_apply ![1] h1 b (ix2 (0 : Fin 1) e) (ix1 e) (fun a => by
      match a with
      | ⟨0, _⟩ =>
        show e.val = if N = 1 then 0 else e.val
        split
        · have := e.isLt; omega
        · rfl)

/-- The host's whole layer: a plain product plus the bias vector broadcast over the rows is `dense` of every row. -/
theorem rows_hostDense {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (addf (Host.dotGeneral (F := Ideal) d prec x w)
        (broadcastInDim ⟨2, ![M, N]⟩ ![0, 1] h2 (broadcastInDim ⟨2, ![1, N]⟩ ![1] h1 b))) r
      = dense (rows w) (vec b) (rows x r) :=
  funext fun e => by
    show rows (Host.dotGeneral (F := Ideal) d prec x w) r e
        + rows (broadcastInDim ⟨2, ![M, N]⟩ ![0, 1] h2 (broadcastInDim ⟨2, ![1, N]⟩ ![1] h1 b)) r e
      = matvec (rows w) (rows x r) e + vec b e
    rw [rows_hostDot d hd prec x w r, rows_broadcast_vec b h1 h2 r]

/-- The maximum with the zero constant broadcast to the whole matrix is ReLU of every row. -/
theorem rows_max_zero_const {M N : ℕ} (v : FVec Ideal ⟨2, ![M, N]⟩ .f32)
    (h : (⟨0, ![]⟩ : Shape).BroadcastsInDim ⟨2, ![M, N]⟩ ![]) (r : Fin M) :
    rows (maximumf v (broadcastInDim ⟨2, ![M, N]⟩ ![] h (constant (F := Ideal) ⟨0, ![]⟩ .f32 0x00000000#32))) r
      = relu (rows v r) :=
  funext fun e => by
    show max (v (ix2 r e)) (broadcastInDim ⟨2, ![M, N]⟩ ![] h (constant (F := Ideal) ⟨0, ![]⟩ .f32 0x00000000#32) (ix2 r e))
      = max (v (ix2 r e)) 0
    have hz : broadcastInDim ⟨2, ![M, N]⟩ ![] h (constant (F := Ideal) ⟨0, ![]⟩ .f32 0x00000000#32) (ix2 r e)
        = Ideal.ofBits .f32 0x00000000#32 :=
      broadcastInDim_apply _ h _ (ix2 r e) (fun a => a.elim0) (fun a => a.elim0)
    rw [hz, Ideal.ofBits_zero_f32]

/-- A vector [N] recast as the one row of a [1, N] matrix: that row is the vector. -/
theorem rows_shapeCast_vec {N : ℕ} (b : (⟨1, ![N]⟩ : Shape).Idx → EReal)
    (h : (⟨1, ![N]⟩ : Shape).ShapeCasts ⟨2, ![1, N]⟩) :
    rows (shapeCast ⟨2, ![1, N]⟩ b h) (0 : Fin 1) = vec b :=
  funext fun e => shapeCast_a_1a_apply b h 0 e

end Cert.LibHostDenseRows

end
-- ==== Proof.HeadRegion.lean ====
/-
  The head layer's launch: what the first region leaves in its output array.

  The region runs over 25 grid points. At point t it stages rows 2000·t … 2000·t + 1999 of the feature matrix, the whole
  weight matrix and the whole bias, computes relu (block · W + b) and writes it back as rows 2000·t … 2000·t + 1999 of
  the output. The layer is row-local, so the block written at point t is exactly that block of rows of
  `Head feature W b` on the whole matrix; the 25 blocks tile the 50000 rows, hence the array ends as `Head feature W b`.
  Everything is stated at the contents `V` the region is entered with, whatever they are.
-/
import proofs.«128205_j12953621365187_2_alg».proof.Proof.KernelIdealFrameP
import proofs.«128205_j12953621365187_2_alg».proof.Proof.Spec
import proofs.«128205_j12953621365187_2_alg».proof.Proof.LibHostDenseRows
import Idealize.ShloMosaic.Lib.Pipeline.Value

noncomputable section

namespace Cert.KernelIdeal.HeadRegion

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Cert.GinSpec Cert.LibDenseRows Cert.LibHostDenseRows

theorem hz2 : (![0, 0] : Fin 2 → Nat) = fun _ => 0 := funext fun a => by fin_cases a <;> rfl
theorem hz1 : (![0] : Fin 1 → Nat) = fun _ => 0 := funext fun a => by fin_cases a <;> rfl

/-- The body's stored value on a block of rows is the head layer of that block. -/
theorem pay_eq (x0 : Vec Ideal S2000x512 .f32) (x1 : Vec Ideal S512x128 .f32) (x2 : Vec Ideal S128 .f32) :
    k0_pay1 (F := Ideal) x0 x1 x2 = Head x0 x1 x2 := by
  show _ = ofRows fun r => relu (rows (denseA x0 x1 x2) r)
  refine eq_ofRows fun r => ?_
  refine (rows_max_zero _ r).trans (congrArg relu ?_)
  refine (rows_matmul_bias dot_S2000x512_S512x128_S2000x128_1_0_0_1_n_n rfl none _ _ _ broadcasts_S1x128_S2000x128 r).trans ?_
  rw [rows_shapeCast_vec]
  rfl

variable (V : (c : Dev nD) → (b : Ref sig .tc) → Buf (Elt Ideal) ((c : Thread nD τ).loc b))

/-- The index maps over the 25 points: the feature block and the output block move together down the rows, the weight
    and the bias are staged whole. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) ≤ 24 ∧ win0_3.index t (1 : Fin 2) = 0 :=
  (by decide +kernel : ∀ t : Fin grid0.N, _)

/-- Every block of 2000 rows is some point's. -/
theorem idx_onto : ∀ q : Fin 25, ∃ t : Fin cfg0.N, win0_3.index t = ![q.val, 0] :=
  (by decide +kernel : ∀ q : Fin 25, ∃ t : Fin grid0.N, win0_3.index t = ![q.val, 0])

/-- The weight matrix is staged whole at every point. -/
theorem iblk_W (c : Dev nD) (t : Fin cfg0.N) : iblk0 V c 1 t = (V c main_arg2 : S512x128.Idx → EReal) := by
  obtain ⟨-, -, e0, e1, -⟩ := idx_facts t
  funext y
  show V c main_arg2 (((cfg0.win 1).blk t).view.emb y) = V c main_arg2 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 128 + 1 * (y 1).val = (y 1).val; omega

/-- The bias is staged whole at every point. -/
theorem iblk_b (c : Dev nD) (t : Fin cfg0.N) : iblk0 V c 2 t = (V c main_arg3 : S128.Idx → EReal) := by
  obtain ⟨-, -, -, -, e0, -⟩ := idx_facts t
  funext y
  show V c main_arg3 (((cfg0.win 2).blk t).view.emb y) = V c main_arg3 y
  refine congrArg _ (funext fun a => Fin.ext ?_)
  match a with
  | ⟨0, _⟩ => show win0_2.index t (0 : Fin 1) * 128 + 1 * (y 0).val = (y 0).val; omega

/-- Row `p` of the feature block at point `t` is the row of the feature matrix that row `p` of the output block is. -/
theorem rows_iblk_x (c : Dev nD) (t : Fin cfg0.N) (y : S2000x128.Idx) :
    rows (iblk0 V c 0 t) (y 0) = rows (V c main_arg0 : S50000x512.Idx → EReal) ((((cfg0.win 3).blk t).view.emb y) 0) := by
  obtain ⟨e0, e1, -⟩ := idx_facts t
  funext k
  show V c main_arg0 (((cfg0.win 0).blk t).view.emb (ix2 (y 0) k)) = V c main_arg0 (ix2 ((((cfg0.win 3).blk t).view.emb y) 0) k)
  refine congrArg _ (funext fun a => Fin.ext ?_)
  match a with
  | ⟨0, _⟩ => show win0_0.index t (0 : Fin 2) * 2000 + 1 * (y 0).val = win0_3.index t (0 : Fin 2) * 2000 + 1 * (y 0).val; omega
  | ⟨1, _⟩ => show win0_0.index t (1 : Fin 2) * 512 + 1 * k.val = k.val; omega

/-- WHAT POINT `t` WRITES BACK is block `t` of the head layer of the arrays the region is entered with. -/
theorem flushed_eq (c : Dev nD) (t : Fin cfg0.N) :
    (dat0 V c).flushed 3 t = ((cfg0.win 3).blk t).view.read (Elt Ideal)
      (Head (V c main_arg0 : S50000x512.Idx → EReal) (V c main_arg2 : S512x128.Idx → EReal) (V c main_arg3 : S128.Idx → EReal)) := by
  show (cfg0.win 3).cut (grid0.coords t) ((dat0 V c).after 3 t) = _
  rw [after0_3]
  unfold out0_3
  rw [View.canon_unit_zero hz2]
  simp only [View.ld_unit_zero (S := S2000x512) hz2, View.ld_unit_zero (S := S512x128) hz2, View.ld_unit_zero (S := S128) hz1]
  rw [pay_eq, iblk_W, iblk_b]
  obtain ⟨-, -, -, -, -, -, e1⟩ := idx_facts t
  funext y
  show Head (iblk0 V c 0 t) _ _ y = Head _ _ _ (((cfg0.win 3).blk t).view.emb y)
  have hcol : (((cfg0.win 3).blk t).view.emb y) 1 = y 1 := Fin.ext (by
    show win0_3.index t (1 : Fin 2) * 128 + 1 * (y 1).val = (y 1).val; omega)
  refine (congrArg (Head (iblk0 V c 0 t) _ _) (eq_ix2 y)).trans ?_
  refine (congrFun (rows_Head _ _ _ _ (y 0) _ (rows_iblk_x V c t y)) (y 1)).trans ?_
  show Head _ _ _ (ix2 ((((cfg0.win 3).blk t).view.emb y) 0) (y 1)) = _
  rw [← hcol]
  exact (congrArg _ (eq_ix2 _)).symm

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v4).slice (win0_3.rect t)).set ↔ _
  rw [View.set_slice_whole, Rect.mem_set_unit]
  exact Iff.rfl

/-- Every index of the output array is in some point's block: row r is in the block of point r / 2000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE OUTPUT ARRAY after the region: the head layer of the arrays the region is entered with. -/
theorem final (c : Dev nD) :
    (dat0 V c).arrAt 3 cfg0.N
      = Head (V c main_arg0 : S50000x512.Idx → EReal) (V c main_arg2 : S512x128.Idx → EReal) (V c main_arg3 : S128.Idx → EReal) :=
  (dat0 V c).arrAt_eq_of_cover 3 _ (fun t _ => flushed_eq V c t) cover

end Cert.KernelIdeal.HeadRegion

end
-- ==== Proof.GinRegion1.lean ====
/-
  A graph-isomorphism layer's launch: what the region leaves in its output array.

  The region runs over 25 grid points. At point t it stages rows 2000·t … 2000·t + 1999 of the node matrix x and of its
  aggregate a, the two weight matrices and the two biases whole, computes relu ((x + a) · W1 + b1) · W2 + b2 on the
  block and writes it back as rows 2000·t … 2000·t + 1999 of the output. The layer is row-local, so the block written
  at point t is exactly that block of rows of `Gin x a W1 b1 W2 b2` on the whole matrices; the 25 blocks tile the 50000
  rows, hence the array ends as `Gin x a W1 b1 W2 b2`. Everything is stated at the contents `V` the region is entered
  with, whatever they are.
-/
import proofs.«128205_j12953621365187_2_alg».proof.Proof.KernelIdealFrameP
import proofs.«128205_j12953621365187_2_alg».proof.Proof.Spec
import proofs.«128205_j12953621365187_2_alg».proof.Proof.LibHostDenseRows
import Idealize.ShloMosaic.Lib.Pipeline.Value

noncomputable section

namespace Cert.KernelIdeal.GinRegion1

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Cert.GinSpec Cert.LibDenseRows Cert.LibHostDenseRows

theorem hz2 : (![0, 0] : Fin 2 → Nat) = fun _ => 0 := funext fun a => by fin_cases a <;> rfl
theorem hz1 : (![0] : Fin 1 → Nat) = fun _ => 0 := funext fun a => by fin_cases a <;> rfl

/-- The body's stored value on a block of rows is the layer of that block: the outer product plus bias is `dense` of
    every row of its left operand, that operand is the maximum with zero, hence `relu`, of the inner product plus bias,
    and the inner left operand is the entrywise sum of the two blocks; the changes of float format and the casts to the
    same shape are identities on the extended reals. -/
theorem pay_eq (x a : Vec Ideal S2000x128 .f32) (w1 : Vec Ideal S128x128 .f32) (b1 : Vec Ideal S128 .f32)
    (w2 : Vec Ideal S128x128 .f32) (b2 : Vec Ideal S128 .f32) :
    k1_pay1 (F := Ideal) x a w1 b1 w2 b2 = Gin x a w1 b1 w2 b2 := by
  show _ = ofRows fun r => dense (rows w2) (vec b2) (relu (dense (rows w1) (vec b1) (fun e => rows x r e + rows a r e)))
  refine eq_ofRows fun r => ?_
  refine (rows_matmul_bias dot_S2000x128_S128x128_S2000x128_1_0_0_1_n_n rfl none _ _ _ broadcasts_S1x128_S2000x128 r).trans ?_
  rw [rows_shapeCast_vec]
  refine congrArg (dense (rows w2) (vec b2)) ?_
  refine (rows_max_zero _ r).trans (congrArg relu ?_)
  refine (rows_matmul_bias dot_S2000x128_S128x128_S2000x128_1_0_0_1_n_n rfl none _ _ _ broadcasts_S1x128_S2000x128 r).trans ?_
  rw [rows_shapeCast_vec]
  refine congrArg (dense (rows w1) (vec b1)) ?_
  have hx : shapeCast S2000x128 x shapeCasts_S2000x128_S2000x128 = x := shapeCast_self x _
  have ha : shapeCast S2000x128 a shapeCasts_S2000x128_S2000x128 = a := shapeCast_self a _
  show rows (addf (F := Ideal) (φ := .f32) (shapeCast S2000x128 x shapeCasts_S2000x128_S2000x128) (shapeCast S2000x128 a shapeCasts_S2000x128_S2000x128)) r = _
  rw [hx, ha]
  rfl

variable (V : (c : Dev nD) → (b : Ref sig .tc) → Buf (Elt Ideal) ((c : Thread nD τ).loc b))

/-- The index maps over the 25 points: the two input blocks and the output block move together down the rows, the
    weights and the biases are staged whole. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) ≤ 24 ∧ win1_6.index t (1 : Fin 2) = 0 :=
  (by decide +kernel : ∀ t : Fin grid1.N, _)

/-- Every block of 2000 rows is some point's. -/
theorem idx_onto : ∀ q : Fin 25, ∃ t : Fin cfg1.N, win1_6.index t = ![q.val, 0] :=
  (by decide +kernel : ∀ q : Fin 25, ∃ t : Fin grid1.N, win1_6.index t = ![q.val, 0])

/-- The first weight matrix is staged whole at every point. -/
theorem iblk_W1 (c : Dev nD) (t : Fin cfg1.N) : iblk1 V c 2 t = (V c main_arg4 : S128x128.Idx → EReal) := by
  obtain ⟨-, -, -, -, e0, e1, -⟩ := idx_facts t
  funext y
  show V c main_arg4 (((cfg1.win 2).blk t).view.emb y) = V c main_arg4 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first bias is staged whole at every point. -/
theorem iblk_b1 (c : Dev nD) (t : Fin cfg1.N) : iblk1 V c 3 t = (V c main_arg5 : S128.Idx → EReal) := by
  obtain ⟨-, -, -, -, -, -, e0, -⟩ := idx_facts t
  funext y
  show V c main_arg5 (((cfg1.win 3).blk t).view.emb y) = V c main_arg5 y
  refine congrArg _ (funext fun a => Fin.ext ?_)
  match a with
  | ⟨0, _⟩ => show win1_3.index t (0 : Fin 1) * 128 + 1 * (y 0).val = (y 0).val; omega

/-- The second weight matrix is staged whole at every point. -/
theorem iblk_W2 (c : Dev nD) (t : Fin cfg1.N) : iblk1 V c 4 t = (V c main_arg6 : S128x128.Idx → EReal) := by
  obtain ⟨-, -, -, -, -, -, -, e0, e1, -⟩ := idx_facts t
  funext y
  show V c main_arg6 (((cfg1.win 4).blk t).view.emb y) = V c main_arg6 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second bias is staged whole at every point. -/
theorem iblk_b2 (c : Dev nD) (t : Fin cfg1.N) : iblk1 V c 5 t = (V c main_arg7 : S128.Idx → EReal) := by
  obtain ⟨-, -, -, -, -, -, -, -, -, e0, -⟩ := idx_facts t
  funext y
  show V c main_arg7 (((cfg1.win 5).blk t).view.emb y) = V c main_arg7 y
  refine congrArg _ (funext fun a => Fin.ext ?_)
  match a with
  | ⟨0, _⟩ => show win1_5.index t (0 : Fin 1) * 128 + 1 * (y 0).val = (y 0).val; omega

/-- Row `p` of the node block at point `t` is the row of the node matrix that row `p` of the output block is. -/
theorem rows_iblk_x (c : Dev nD) (t : Fin cfg1.N) (y : S2000x128.Idx) :
    rows (iblk1 V c 0 t) (y 0) = rows (V c main_v4 : S50000x128.Idx → EReal) ((((cfg1.win 6).blk t).view.emb y) 0) := by
  obtain ⟨e0, e1, -⟩ := idx_facts t
  funext k
  show V c main_v4 (((cfg1.win 0).blk t).view.emb (ix2 (y 0) k)) = V c main_v4 (ix2 ((((cfg1.win 6).blk t).view.emb y) 0) k)
  refine congrArg _ (funext fun a => Fin.ext ?_)
  match a with
  | ⟨0, _⟩ => show win1_0.index t (0 : Fin 2) * 2000 + 1 * (y 0).val = win1_6.index t (0 : Fin 2) * 2000 + 1 * (y 0).val; omega
  | ⟨1, _⟩ => show win1_0.index t (1 : Fin 2) * 128 + 1 * k.val = k.val; omega

/-- Row `p` of the aggregate block at point `t` is the row of the aggregate that row `p` of the output block is. -/
theorem rows_iblk_a (c : Dev nD) (t : Fin cfg1.N) (y : S2000x128.Idx) :
    rows (iblk1 V c 1 t) (y 0) = rows (V c main_v14 : S50000x128.Idx → EReal) ((((cfg1.win 6).blk t).view.emb y) 0) := by
  obtain ⟨-, -, e0, e1, -⟩ := idx_facts t
  funext k
  show V c main_v14 (((cfg1.win 1).blk t).view.emb (ix2 (y 0) k)) = V c main_v14 (ix2 ((((cfg1.win 6).blk t).view.emb y) 0) k)
  refine congrArg _ (funext fun a => Fin.ext ?_)
  match a with
  | ⟨0, _⟩ => show win1_1.index t (0 : Fin 2) * 2000 + 1 * (y 0).val = win1_6.index t (0 : Fin 2) * 2000 + 1 * (y 0).val; omega
  | ⟨1, _⟩ => show win1_1.index t (1 : Fin 2) * 128 + 1 * k.val = k.val; omega

/-- WHAT POINT `t` WRITES BACK is block `t` of the layer of the arrays the region is entered with. -/
theorem flushed_eq (c : Dev nD) (t : Fin cfg1.N) :
    (dat1 V c).flushed 6 t = ((cfg1.win 6).blk t).view.read (Elt Ideal)
      (Gin (V c main_v4 : S50000x128.Idx → EReal) (V c main_v14 : S50000x128.Idx → EReal) (V c main_arg4 : S128x128.Idx → EReal)
        (V c main_arg5 : S128.Idx → EReal) (V c main_arg6 : S128x128.Idx → EReal) (V c main_arg7 : S128.Idx → EReal)) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S128x128) hz2, View.ld_unit_zero (S := S128) hz1]
  rw [pay_eq, iblk_W1, iblk_b1, iblk_W2, iblk_b2]
  obtain ⟨-, -, -, -, -, -, -, -, -, -, -, e1⟩ := idx_facts t
  funext y
  show Gin (iblk1 V c 0 t) (iblk1 V c 1 t) _ _ _ _ y = Gin _ _ _ _ _ _ (((cfg1.win 6).blk t).view.emb y)
  have hcol : (((cfg1.win 6).blk t).view.emb y) 1 = y 1 := Fin.ext (by
    show win1_6.index t (1 : Fin 2) * 128 + 1 * (y 1).val = (y 1).val; omega)
  refine (congrArg (Gin (iblk1 V c 0 t) (iblk1 V c 1 t) _ _ _ _) (eq_ix2 y)).trans ?_
  refine (congrFun (rows_Gin _ _ _ _ _ _ _ _ (y 0) _ (rows_iblk_x V c t y) (rows_iblk_a V c t y)) (y 1)).trans ?_
  show Gin _ _ _ _ _ _ (ix2 ((((cfg1.win 6).blk t).view.emb y) 0) (y 1)) = _
  rw [← hcol]
  exact (congrArg _ (eq_ix2 _)).symm

/-- An index of the output array is in point `t`'s block iff each coordinate is in the block's range on its axis. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v15).slice (win1_6.rect t)).set ↔ _
  rw [View.set_slice_whole, Rect.mem_set_unit]
  exact Iff.rfl

/-- Every index of the output array is in some point's block: row r is in the block of point r / 2000. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- THE OUTPUT ARRAY after the region: the layer of the arrays the region is entered with. -/
theorem final (c : Dev nD) :
    (dat1 V c).arrAt 6 cfg1.N
      = Gin (V c main_v4 : S50000x128.Idx → EReal) (V c main_v14 : S50000x128.Idx → EReal) (V c main_arg4 : S128x128.Idx → EReal)
          (V c main_arg5 : S128.Idx → EReal) (V c main_arg6 : S128x128.Idx → EReal) (V c main_arg7 : S128.Idx → EReal) :=
  (dat1 V c).arrAt_eq_of_cover 6 _ (fun t _ => flushed_eq V c t) cover

end Cert.KernelIdeal.GinRegion1

end
-- ==== Proof.GinRegion2.lean ====
/-
  A graph-isomorphism layer's launch: what the region leaves in its output array.

  The region runs over 25 grid points. At point t it stages rows 2000·t … 2000·t + 1999 of the node matrix x and of its
  aggregate a, the two weight matrices and the two biases whole, computes relu ((x + a) · W1 + b1) · W2 + b2 on the
  block and writes it back as rows 2000·t … 2000·t + 1999 of the output. The layer is row-local, so the block written
  at point t is exactly that block of rows of `Gin x a W1 b1 W2 b2` on the whole matrices; the 25 blocks tile the 50000
  rows, hence the array ends as `Gin x a W1 b1 W2 b2`. Everything is stated at the contents `V` the region is entered
  with, whatever they are.
-/
import proofs.«128205_j12953621365187_2_alg».proof.Proof.KernelIdealFrameP
import proofs.«128205_j12953621365187_2_alg».proof.Proof.Spec
import proofs.«128205_j12953621365187_2_alg».proof.Proof.LibHostDenseRows
import Idealize.ShloMosaic.Lib.Pipeline.Value

noncomputable section

namespace Cert.KernelIdeal.GinRegion2

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Cert.GinSpec Cert.LibDenseRows Cert.LibHostDenseRows

theorem hz2 : (![0, 0] : Fin 2 → Nat) = fun _ => 0 := funext fun a => by fin_cases a <;> rfl
theorem hz1 : (![0] : Fin 1 → Nat) = fun _ => 0 := funext fun a => by fin_cases a <;> rfl

/-- The body's stored value on a block of rows is the layer of that block: the outer product plus bias is `dense` of
    every row of its left operand, that operand is the maximum with zero, hence `relu`, of the inner product plus bias,
    and the inner left operand is the entrywise sum of the two blocks; the changes of float format and the casts to the
    same shape are identities on the extended reals. -/
theorem pay_eq (x a : Vec Ideal S2000x128 .f32) (w1 : Vec Ideal S128x128 .f32) (b1 : Vec Ideal S128 .f32)
    (w2 : Vec Ideal S128x128 .f32) (b2 : Vec Ideal S128 .f32) :
    k2_pay1 (F := Ideal) x a w1 b1 w2 b2 = Gin x a w1 b1 w2 b2 := by
  show _ = ofRows fun r => dense (rows w2) (vec b2) (relu (dense (rows w1) (vec b1) (fun e => rows x r e + rows a r e)))
  refine eq_ofRows fun r => ?_
  refine (rows_matmul_bias dot_S2000x128_S128x128_S2000x128_1_0_0_1_n_n rfl none _ _ _ broadcasts_S1x128_S2000x128 r).trans ?_
  rw [rows_shapeCast_vec]
  refine congrArg (dense (rows w2) (vec b2)) ?_
  refine (rows_max_zero _ r).trans (congrArg relu ?_)
  refine (rows_matmul_bias dot_S2000x128_S128x128_S2000x128_1_0_0_1_n_n rfl none _ _ _ broadcasts_S1x128_S2000x128 r).trans ?_
  rw [rows_shapeCast_vec]
  refine congrArg (dense (rows w1) (vec b1)) ?_
  have hx : shapeCast S2000x128 x shapeCasts_S2000x128_S2000x128 = x := shapeCast_self x _
  have ha : shapeCast S2000x128 a shapeCasts_S2000x128_S2000x128 = a := shapeCast_self a _
  show rows (addf (F := Ideal) (φ := .f32) (shapeCast S2000x128 x shapeCasts_S2000x128_S2000x128) (shapeCast S2000x128 a shapeCasts_S2000x128_S2000x128)) r = _
  rw [hx, ha]
  rfl

variable (V : (c : Dev nD) → (b : Ref sig .tc) → Buf (Elt Ideal) ((c : Thread nD τ).loc b))

/-- The index maps over the 25 points: the two input blocks and the output block move together down the rows, the
    weights and the biases are staged whole. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) ≤ 24 ∧ win2_6.index t (1 : Fin 2) = 0 :=
  (by decide +kernel : ∀ t : Fin grid2.N, _)

/-- Every block of 2000 rows is some point's. -/
theorem idx_onto : ∀ q : Fin 25, ∃ t : Fin cfg2.N, win2_6.index t = ![q.val, 0] :=
  (by decide +kernel : ∀ q : Fin 25, ∃ t : Fin grid2.N, win2_6.index t = ![q.val, 0])

/-- The first weight matrix is staged whole at every point. -/
theorem iblk_W1 (c : Dev nD) (t : Fin cfg2.N) : iblk2 V c 2 t = (V c main_arg8 : S128x128.Idx → EReal) := by
  obtain ⟨-, -, -, -, e0, e1, -⟩ := idx_facts t
  funext y
  show V c main_arg8 (((cfg2.win 2).blk t).view.emb y) = V c main_arg8 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The first bias is staged whole at every point. -/
theorem iblk_b1 (c : Dev nD) (t : Fin cfg2.N) : iblk2 V c 3 t = (V c main_arg9 : S128.Idx → EReal) := by
  obtain ⟨-, -, -, -, -, -, e0, -⟩ := idx_facts t
  funext y
  show V c main_arg9 (((cfg2.win 3).blk t).view.emb y) = V c main_arg9 y
  refine congrArg _ (funext fun a => Fin.ext ?_)
  match a with
  | ⟨0, _⟩ => show win2_3.index t (0 : Fin 1) * 128 + 1 * (y 0).val = (y 0).val; omega

/-- The second weight matrix is staged whole at every point. -/
theorem iblk_W2 (c : Dev nD) (t : Fin cfg2.N) : iblk2 V c 4 t = (V c main_arg10 : S128x128.Idx → EReal) := by
  obtain ⟨-, -, -, -, -, -, -, e0, e1, -⟩ := idx_facts t
  funext y
  show V c main_arg10 (((cfg2.win 4).blk t).view.emb y) = V c main_arg10 y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- The second bias is staged whole at every point. -/
theorem iblk_b2 (c : Dev nD) (t : Fin cfg2.N) : iblk2 V c 5 t = (V c main_arg11 : S128.Idx → EReal) := by
  obtain ⟨-, -, -, -, -, -, -, -, -, e0, -⟩ := idx_facts t
  funext y
  show V c main_arg11 (((cfg2.win 5).blk t).view.emb y) = V c main_arg11 y
  refine congrArg _ (funext fun a => Fin.ext ?_)
  match a with
  | ⟨0, _⟩ => show win2_5.index t (0 : Fin 1) * 128 + 1 * (y 0).val = (y 0).val; omega

/-- Row `p` of the node block at point `t` is the row of the node matrix that row `p` of the output block is. -/
theorem rows_iblk_x (c : Dev nD) (t : Fin cfg2.N) (y : S2000x128.Idx) :
    rows (iblk2 V c 0 t) (y 0) = rows (V c main_v15 : S50000x128.Idx → EReal) ((((cfg2.win 6).blk t).view.emb y) 0) := by
  obtain ⟨e0, e1, -⟩ := idx_facts t
  funext k
  show V c main_v15 (((cfg2.win 0).blk t).view.emb (ix2 (y 0) k)) = V c main_v15 (ix2 ((((cfg2.win 6).blk t).view.emb y) 0) k)
  refine congrArg _ (funext fun a => Fin.ext ?_)
  match a with
  | ⟨0, _⟩ => show win2_0.index t (0 : Fin 2) * 2000 + 1 * (y 0).val = win2_6.index t (0 : Fin 2) * 2000 + 1 * (y 0).val; omega
  | ⟨1, _⟩ => show win2_0.index t (1 : Fin 2) * 128 + 1 * k.val = k.val; omega

/-- Row `p` of the aggregate block at point `t` is the row of the aggregate that row `p` of the output block is. -/
theorem rows_iblk_a (c : Dev nD) (t : Fin cfg2.N) (y : S2000x128.Idx) :
    rows (iblk2 V c 1 t) (y 0) = rows (V c main_v25 : S50000x128.Idx → EReal) ((((cfg2.win 6).blk t).view.emb y) 0) := by
  obtain ⟨-, -, e0, e1, -⟩ := idx_facts t
  funext k
  show V c main_v25 (((cfg2.win 1).blk t).view.emb (ix2 (y 0) k)) = V c main_v25 (ix2 ((((cfg2.win 6).blk t).view.emb y) 0) k)
  refine congrArg _ (funext fun a => Fin.ext ?_)
  match a with
  | ⟨0, _⟩ => show win2_1.index t (0 : Fin 2) * 2000 + 1 * (y 0).val = win2_6.index t (0 : Fin 2) * 2000 + 1 * (y 0).val; omega
  | ⟨1, _⟩ => show win2_1.index t (1 : Fin 2) * 128 + 1 * k.val = k.val; omega

/-- WHAT POINT `t` WRITES BACK is block `t` of the layer of the arrays the region is entered with. -/
theorem flushed_eq (c : Dev nD) (t : Fin cfg2.N) :
    (dat2 V c).flushed 6 t = ((cfg2.win 6).blk t).view.read (Elt Ideal)
      (Gin (V c main_v15 : S50000x128.Idx → EReal) (V c main_v25 : S50000x128.Idx → EReal) (V c main_arg8 : S128x128.Idx → EReal)
        (V c main_arg9 : S128.Idx → EReal) (V c main_arg10 : S128x128.Idx → EReal) (V c main_arg11 : S128.Idx → EReal)) := by
  show (cfg2.win 6).cut (grid2.coords t) ((dat2 V c).after 6 t) = _
  rw [after2_6]
  unfold out2_6
  rw [View.canon_unit_zero hz2]
  simp only [View.ld_unit_zero (S := S2000x128) hz2, View.ld_unit_zero (S := S128x128) hz2, View.ld_unit_zero (S := S128) hz1]
  rw [pay_eq, iblk_W1, iblk_b1, iblk_W2, iblk_b2]
  obtain ⟨-, -, -, -, -, -, -, -, -, -, -, e1⟩ := idx_facts t
  funext y
  show Gin (iblk2 V c 0 t) (iblk2 V c 1 t) _ _ _ _ y = Gin _ _ _ _ _ _ (((cfg2.win 6).blk t).view.emb y)
  have hcol : (((cfg2.win 6).blk t).view.emb y) 1 = y 1 := Fin.ext (by
    show win2_6.index t (1 : Fin 2) * 128 + 1 * (y 1).val = (y 1).val; omega)
  refine (congrArg (Gin (iblk2 V c 0 t) (iblk2 V c 1 t) _ _ _ _) (eq_ix2 y)).trans ?_
  refine (congrFun (rows_Gin _ _ _ _ _ _ _ _ (y 0) _ (rows_iblk_x V c t y) (rows_iblk_a V c t y)) (y 1)).trans ?_
  show Gin _ _ _ _ _ _ (ix2 ((((cfg2.win 6).blk t).view.emb y) 0) (y 1)) = _
  rw [← hcol]
  exact (congrArg _ (eq_ix2 _)).symm

/-- An index of the output array is in point `t`'s block iff each coordinate is in the block's range on its axis. -/
theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v26).slice (win2_6.rect t)).set ↔ _
  rw [View.set_slice_whole, Rect.mem_set_unit]
  exact Iff.rfl

/-- Every index of the output array is in some point's block: row r is in the block of point r / 2000. -/
theorem cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := idx_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- THE OUTPUT ARRAY after the region: the layer of the arrays the region is entered with. -/
theorem final (c : Dev nD) :
    (dat2 V c).arrAt 6 cfg2.N
      = Gin (V c main_v15 : S50000x128.Idx → EReal) (V c main_v25 : S50000x128.Idx → EReal) (V c main_arg8 : S128x128.Idx → EReal)
          (V c main_arg9 : S128.Idx → EReal) (V c main_arg10 : S128x128.Idx → EReal) (V c main_arg11 : S128.Idx → EReal) :=
  (dat2 V c).arrAt_eq_of_cover 6 _ (fun t _ => flushed_eq V c t) cover

end Cert.KernelIdeal.GinRegion2

end
-- ==== Proof.TailRegion.lean ====
/-
  The tail projection's launch: what the last region leaves in its output array.

  The region runs over 25 grid points. At point t it stages rows 2000·t … 2000·t + 1999 of the node matrix, the whole
  weight column and the whole one-entry bias, computes block · W + b and writes it back as rows
  2000·t … 2000·t + 1999 of the output column. The layer is row-local, so the block written at point t is exactly that
  block of rows of `Tail x W b` on the whole matrix; the 25 blocks tile the 50000 rows, hence the array ends as
  `Tail x W b`. Everything is stated at the contents `V` the region is entered with, whatever they are.
-/
import proofs.«128205_j12953621365187_2_alg».proof.Proof.KernelIdealFrameP
import proofs.«128205_j12953621365187_2_alg».proof.Proof.Spec
import proofs.«128205_j12953621365187_2_alg».proof.Proof.LibHostDenseRows
import Idealize.ShloMosaic.Lib.Pipeline.Value

noncomputable section

namespace Cert.KernelIdeal.TailRegion

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Cert.GinSpec Cert.LibDenseRows Cert.LibHostDenseRows

theorem hz2 : (![0, 0] : Fin 2 → Nat) = fun _ => 0 := funext fun a => by fin_cases a <;> rfl
theorem hz1 : (![0] : Fin 1 → Nat) = fun _ => 0 := funext fun a => by fin_cases a <;> rfl

/-- The body's stored value on a block of rows is the projection of that block: a product into the zero accumulator
    plus the bias row is `dense` of every row of the left operand; the change of float format and the cast to the same
    shape are identities on the extended reals. -/
theorem pay_eq (x : Vec Ideal S2000x128 .f32) (w : Vec Ideal S128x1 .f32) (b : Vec Ideal S1 .f32) :
    k3_pay1 (F := Ideal) x w b = Tail x w b := by
  show _ = ofRows fun r => dense (rows w) (vec b) (rows x r)
  refine eq_ofRows fun r => ?_
  refine (rows_matmul_bias dot_S2000x128_S128x1_S2000x1_1_0_0_1_n_n rfl none _ _ _ broadcasts_S1x1_S2000x1 r).trans ?_
  rw [rows_shapeCast_vec]
  refine congrArg (dense (rows w) (vec b)) ?_
  have hx : shapeCast S2000x128 x shapeCasts_S2000x128_S2000x128 = x := shapeCast_self x _
  show rows (shapeCast S2000x128 x shapeCasts_S2000x128_S2000x128) r = _
  rw [hx]

variable (V : (c : Dev nD) → (b : Ref sig .tc) → Buf (Elt Ideal) ((c : Thread nD τ).loc b))

/-- The index maps over the 25 points: the input block and the output block move together down the rows, the weight
    and the bias are staged whole. -/
theorem idx_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 1) = 0
    ∧ win3_3.index t (0 : Fin 2) ≤ 24 ∧ win3_3.index t (1 : Fin 2) = 0 :=
  (by decide +kernel : ∀ t : Fin grid3.N, _)

/-- Every block of 2000 rows is some point's. -/
theorem idx_onto : ∀ q : Fin 25, ∃ t : Fin cfg3.N, win3_3.index t = ![q.val, 0] :=
  (by decide +kernel : ∀ q : Fin 25, ∃ t : Fin grid3.N, win3_3.index t = ![q.val, 0])

/-- The weight column is staged whole at every point. -/
theorem iblk_W (c : Dev nD) (t : Fin cfg3.N) : iblk3 V c 1 t = (V c main_arg12 : S128x1.Idx → EReal) := by
  obtain ⟨-, -, e0, e1, -⟩ := idx_facts t
  funext y
  show V c main_arg12 (((cfg3.win 1).blk t).view.emb y) = V c main_arg12 y
  refine congrArg _ (funext fun a => Fin.ext ?_)
  match a with
  | ⟨0, _⟩ => show win3_1.index t (0 : Fin 2) * 128 + 1 * (y 0).val = (y 0).val; omega
  | ⟨1, _⟩ => show win3_1.index t (1 : Fin 2) * 1 + 1 * (y 1).val = (y 1).val; omega

/-- The bias is staged whole at every point. -/
theorem iblk_b (c : Dev nD) (t : Fin cfg3.N) : iblk3 V c 2 t = (V c main_arg13 : S1.Idx → EReal) := by
  obtain ⟨-, -, -, -, e0, -⟩ := idx_facts t
  funext y
  show V c main_arg13 (((cfg3.win 2).blk t).view.emb y) = V c main_arg13 y
  refine congrArg _ (funext fun a => Fin.ext ?_)
  match a with
  | ⟨0, _⟩ => show win3_2.index t (0 : Fin 1) * 1 + 1 * (y 0).val = (y 0).val; omega

/-- Row `p` of the input block at point `t` is the row of the node matrix that row `p` of the output block is. -/
theorem rows_iblk_x (c : Dev nD) (t : Fin cfg3.N) (y : S2000x1.Idx) :
    rows (iblk3 V c 0 t) (y 0) = rows (V c main_v26 : S50000x128.Idx → EReal) ((((cfg3.win 3).blk t).view.emb y) 0) := by
  obtain ⟨e0, e1, -⟩ := idx_facts t
  funext k
  show V c main_v26 (((cfg3.win 0).blk t).view.emb (ix2 (y 0) k)) = V c main_v26 (ix2 ((((cfg3.win 3).blk t).view.emb y) 0) k)
  refine congrArg _ (funext fun a => Fin.ext ?_)
  match a with
  | ⟨0, _⟩ => show win3_0.index t (0 : Fin 2) * 2000 + 1 * (y 0).val = win3_3.index t (0 : Fin 2) * 2000 + 1 * (y 0).val; omega
  | ⟨1, _⟩ => show win3_0.index t (1 : Fin 2) * 128 + 1 * k.val = k.val; omega

/-- WHAT POINT `t` WRITES BACK is block `t` of the projection of the arrays the region is entered with. -/
theorem flushed_eq (c : Dev nD) (t : Fin cfg3.N) :
    (dat3 V c).flushed 3 t = ((cfg3.win 3).blk t).view.read (Elt Ideal)
      (Tail (V c main_v26 : S50000x128.Idx → EReal) (V c main_arg12 : S128x1.Idx → EReal) (V c main_arg13 : S1.Idx → EReal)) := by
  show (cfg3.win 3).cut (grid3.coords t) ((dat3 V c).after 3 t) = _
  rw [after3_3]
  unfold out3_3
  rw [View.canon_unit_zero hz2]
  simp only [View.ld_unit_zero (S := S2000x128) hz2, View.ld_unit_zero (S := S128x1) hz2, View.ld_unit_zero (S := S1) hz1]
  rw [pay_eq, iblk_W, iblk_b]
  obtain ⟨-, -, -, -, -, -, e1⟩ := idx_facts t
  funext y
  show Tail (iblk3 V c 0 t) _ _ y = Tail _ _ _ (((cfg3.win 3).blk t).view.emb y)
  have hcol : (((cfg3.win 3).blk t).view.emb y) 1 = y 1 := Fin.ext (by
    show win3_3.index t (1 : Fin 2) * 1 + 1 * (y 1).val = (y 1).val; omega)
  refine (congrArg (Tail (iblk3 V c 0 t) _ _) (eq_ix2 y)).trans ?_
  refine (congrFun (rows_Tail _ _ _ _ (y 0) _ (rows_iblk_x V c t y)) (y 1)).trans ?_
  show Tail _ _ _ (ix2 ((((cfg3.win 3).blk t).view.emb y) 0) (y 1)) = _
  rw [← hcol]
  exact (congrArg _ (eq_ix2 _)).symm

/-- An index of the output array is in point `t`'s block iff each coordinate is in the block's range on its axis. -/
theorem mem_blk (t : Fin cfg3.N) (i : S50000x1.Idx) :
    i ∈ ((cfg3.win 3).blk t).view.set ↔ ∀ a : Fin 2, win3_3.index t a * S2000x1.size a ≤ (i a).val ∧ (i a).val < win3_3.index t a * S2000x1.size a + S2000x1.size a := by
  show i ∈ ((View.whole main_v27).slice (win3_3.rect t)).set ↔ _
  rw [View.set_slice_whole, Rect.mem_set_unit]
  exact Iff.rfl

/-- Every index of the output array is in some point's block: row r is in the block of point r / 2000. -/
theorem cover (i : S50000x1.Idx) : ∃ t : Fin cfg3.N, (cfg3.win 3).flush t = true ∧ i ∈ ((cfg3.win 3).blk t).view.set := by
  have hi0 : (i 0).val < 50000 := (i 0).isLt
  have hi1 : (i 1).val < 1 := (i 1).isLt
  obtain ⟨t, ht⟩ := idx_onto ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 1 ≤ (i 1).val ∧ (i 1).val < win3_3.index t (1 : Fin 2) * 1 + 1; omega

/-- THE OUTPUT ARRAY after the region: the projection of the arrays the region is entered with. -/
theorem final (c : Dev nD) :
    (dat3 V c).arrAt 3 cfg3.N
      = Tail (V c main_v26 : S50000x128.Idx → EReal) (V c main_arg12 : S128x1.Idx → EReal) (V c main_arg13 : S1.Idx → EReal) :=
  (dat3 V c).arrAt_eq_of_cover 3 _ (fun t _ => flushed_eq V c t) cover

end Cert.KernelIdeal.TailRegion

end
-- ==== Proof.KernelNet.lean ====
/-
  The idealized kernel program's result as a function of its arguments.

  The program's buffers at each boundary between a stretch of host operations and a launch are a fold over the launch
  memory: a host stretch rewrites the buffers its operations write, a launch rewrites its output array and nothing else.
  Reading the result buffer back through that fold, stage by stage:
    the edge list's two rows are cut once, before the first launch, and never written again;
    the first launch leaves the head layer of the feature matrix;
    each of the next two launches is entered with the previous activation and its aggregate over the edges (a host
    gather and scatter-add of that activation) and leaves the layer of the two;
    the last launch leaves the tail projection, and the closing host stretch normalises it.
  No argument array is written on the way, so every weight a later launch reads is still the launch memory's.
-/
import proofs.«128205_j12953621365187_2_alg».proof.Proof.KernelIdealFrameP
import proofs.«128205_j12953621365187_2_alg».proof.Proof.Spec
import proofs.«128205_j12953621365187_2_alg».proof.Proof.HeadRegion
import proofs.«128205_j12953621365187_2_alg».proof.Proof.GinRegion1
import proofs.«128205_j12953621365187_2_alg».proof.Proof.GinRegion2
import proofs.«128205_j12953621365187_2_alg».proof.Proof.TailRegion

noncomputable section

namespace Cert.KernelIdeal.Fold

open Cert.KernelIdeal Cert.KernelIdeal.Gen Cert.KernelIdeal.GenP Idealize.ShloMosaic Idealize.ShloMosaic.TcCoe Idealize.SL.Sem
open Idealize.ShloMosaic.Pipeline (Dat)
open Idealize.ShloMosaic.StableHlo (after_of_forall_not_mem)
open Cert.GinSpec

variable (m : (ℓ : Loc nD τ sig) → Buf (Elt Ideal) ℓ) (ρ : Dev nD → PrngReg) (c : Dev nD)

/-- No operation of a host stretch writes the buffer in hand: each operation's one written buffer is another. -/
macro "not_written" ops:ident : tactic =>
  `(tactic| (refine List.forall_iff_forall_mem.mp ?_
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## Before the first launch -/

/-- A buffer the first host stretch does not write holds the launch memory's contents at the first launch. -/
theorem W1_keep (b : Ref sig .tc) (h : ∀ op ∈ (hostOps0 : List (HloOp τ sig (Elt Ideal))), Proc.devRef .tc b ∉ op.writes) :
    W1 m ρ c (Proc.devRef .tc b) = m ((c : Thread nD τ).loc b) :=
  (after_of_forall_not_mem (b := Proc.devRef .tc b) _ _ h).trans rfl

/-- The sources: row 0 of the edge list. -/
theorem W1_src : W1 m ρ c (Proc.devRef .tc main_v1) = srcOf (m ((c : Thread nD τ).loc main_arg1)) := by
  show StableHlo.after hostOps0 (W0 m ρ c) (Proc.devRef .tc main_v1) = _
  after_results
  rfl

/-- The targets: row 1 of the edge list. -/
theorem W1_dst : W1 m ρ c (Proc.devRef .tc main_v3) = dstOf (m ((c : Thread nD τ).loc main_arg1)) := by
  show StableHlo.after hostOps0 (W0 m ρ c) (Proc.devRef .tc main_v3) = _
  after_results
  rfl

/-! ## The first launch: the head layer -/

/-- The head layer of the launch memory's feature matrix. -/
abbrev x0 : Mat 50000 128 :=
  Head (m ((c : Thread nD τ).loc main_arg0)) (m ((c : Thread nD τ).loc main_arg2)) (m ((c : Thread nD τ).loc main_arg3))

theorem W2_x0 : W2 m ρ c (Proc.devRef .tc main_v4) = x0 m c := by
  refine (W2_arr m ρ c 3).trans ((HeadRegion.final (V1 m ρ) c).trans ?_)
  show Head (W1 m ρ c (Proc.devRef .tc main_arg0)) (W1 m ρ c (Proc.devRef .tc main_arg2)) (W1 m ρ c (Proc.devRef .tc main_arg3)) = _
  rw [W1_keep m ρ c main_arg0 (by not_written hostOps0), W1_keep m ρ c main_arg2 (by not_written hostOps0),
    W1_keep m ρ c main_arg3 (by not_written hostOps0)]

/-- A buffer that is no array of the first launch and that the second host stretch does not write is, at the second
    launch, what it was at the first. -/
theorem W3_keep (b : Ref sig .tc) (h : ∀ op ∈ (hostOps1 : List (HloOp τ sig (Elt Ideal))), Proc.devRef .tc b ∉ op.writes)
    (hs : ∀ w, Pipeline.arrRef spec0 w ≠ b) : W3 m ρ c (Proc.devRef .tc b) = W1 m ρ c (Proc.devRef .tc b) :=
  (after_of_forall_not_mem (b := Proc.devRef .tc b) _ _ h).trans (W2_of_ne m ρ c b hs)

theorem W3_x0 : W3 m ρ c (Proc.devRef .tc main_v4) = x0 m c :=
  (after_of_forall_not_mem (b := Proc.devRef .tc main_v4) _ _ (by not_written hostOps1)).trans (W2_x0 m ρ c)

/-- The first aggregate: the host gather and scatter-add of the head layer over the edges. -/
theorem W3_agg : W3 m ρ c (Proc.devRef .tc main_v14)
    = Agg (x0 m c) (srcOf (m ((c : Thread nD τ).loc main_arg1))) (dstOf (m ((c : Thread nD τ).loc main_arg1))) := by
  rw [← W2_x0 m ρ c, ← W1_src m ρ c, ← W1_dst m ρ c, ← W2_of_ne m ρ c main_v1 (by decide), ← W2_of_ne m ρ c main_v3 (by decide)]
  show StableHlo.after hostOps1 (W2 m ρ c) (Proc.devRef .tc main_v14) = _
  after_results
  generalize W2 m ρ c (Proc.devRef .tc main_v4) = x
  generalize W2 m ρ c (Proc.devRef .tc main_v1) = s
  generalize W2 m ρ c (Proc.devRef .tc main_v3) = d
  rfl

/-! ## The second launch: the first graph layer -/

/-- The first graph layer of the head layer and its aggregate. -/
abbrev x1 : Mat 50000 128 :=
  Gin (x0 m c) (Agg (x0 m c) (srcOf (m ((c : Thread nD τ).loc main_arg1))) (dstOf (m ((c : Thread nD τ).loc main_arg1))))
    (m ((c : Thread nD τ).loc main_arg4)) (m ((c : Thread nD τ).loc main_arg5))
    (m ((c : Thread nD τ).loc main_arg6)) (m ((c : Thread nD τ).loc main_arg7))

/-- A weight of the second launch is the launch memory's. -/
theorem W3_arg (b : Ref sig .tc) (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (hs : ∀ w, Pipeline.arrRef spec0 w ≠ b) : W3 m ρ c (Proc.devRef .tc b) = m ((c : Thread nD τ).loc b) :=
  (W3_keep m ρ c b h1 hs).trans (W1_keep m ρ c b h0)

theorem W4_x1 : W4 m ρ c (Proc.devRef .tc main_v15) = x1 m c := by
  refine (W4_arr m ρ c 6).trans ((GinRegion1.final (V3 m ρ) c).trans ?_)
  show Gin (W3 m ρ c (Proc.devRef .tc main_v4)) (W3 m ρ c (Proc.devRef .tc main_v14))
    (W3 m ρ c (Proc.devRef .tc main_arg4)) (W3 m ρ c (Proc.devRef .tc main_arg5))
    (W3 m ρ c (Proc.devRef .tc main_arg6)) (W3 m ρ c (Proc.devRef .tc main_arg7)) = _
  rw [W3_x0 m ρ c, W3_agg m ρ c,
    W3_arg m ρ c main_arg4 (by not_written hostOps0) (by not_written hostOps1) (by decide),
    W3_arg m ρ c main_arg5 (by not_written hostOps0) (by not_written hostOps1) (by decide),
    W3_arg m ρ c main_arg6 (by not_written hostOps0) (by not_written hostOps1) (by decide),
    W3_arg m ρ c main_arg7 (by not_written hostOps0) (by not_written hostOps1) (by decide)]

/-! ## The third launch: the second graph layer -/

/-- A buffer that is no array of the second launch and that the third host stretch does not write is, at the third
    launch, what it was at the second. -/
theorem W5_keep (b : Ref sig .tc) (h : ∀ op ∈ (hostOps2 : List (HloOp τ sig (Elt Ideal))), Proc.devRef .tc b ∉ op.writes)
    (hs : ∀ w, Pipeline.arrRef spec1 w ≠ b) : W5 m ρ c (Proc.devRef .tc b) = W3 m ρ c (Proc.devRef .tc b) :=
  (after_of_forall_not_mem (b := Proc.devRef .tc b) _ _ h).trans (W4_of_ne m ρ c b hs)

theorem W5_arg (b : Ref sig .tc) (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (h2 : ∀ op ∈ (hostOps2 : List (HloOp τ sig (Elt Ideal))), Proc.devRef .tc b ∉ op.writes)
    (hs0 : ∀ w, Pipeline.arrRef spec0 w ≠ b) (hs1 : ∀ w, Pipeline.arrRef spec1 w ≠ b) :
    W5 m ρ c (Proc.devRef .tc b) = m ((c : Thread nD τ).loc b) :=
  (W5_keep m ρ c b h2 hs1).trans (W3_arg m ρ c b h0 h1 hs0)

theorem W5_x1 : W5 m ρ c (Proc.devRef .tc main_v15) = x1 m c :=
  (after_of_forall_not_mem (b := Proc.devRef .tc main_v15) _ _ (by not_written hostOps2)).trans (W4_x1 m ρ c)

/-- The edge rows at the second launch's exit are still the ones cut before the first launch. -/
theorem W4_src : W4 m ρ c (Proc.devRef .tc main_v1) = srcOf (m ((c : Thread nD τ).loc main_arg1)) :=
  (W4_of_ne m ρ c main_v1 (by decide)).trans ((W3_keep m ρ c main_v1 (by not_written hostOps1) (by decide)).trans (W1_src m ρ c))
theorem W4_dst : W4 m ρ c (Proc.devRef .tc main_v3) = dstOf (m ((c : Thread nD τ).loc main_arg1)) :=
  (W4_of_ne m ρ c main_v3 (by decide)).trans ((W3_keep m ρ c main_v3 (by not_written hostOps1) (by decide)).trans (W1_dst m ρ c))

/-- The second aggregate: the same host gather and scatter-add, of the first graph layer. -/
theorem W5_agg : W5 m ρ c (Proc.devRef .tc main_v25)
    = Agg (x1 m c) (srcOf (m ((c : Thread nD τ).loc main_arg1))) (dstOf (m ((c : Thread nD τ).loc main_arg1))) := by
  rw [← W4_x1 m ρ c, ← W4_src m ρ c, ← W4_dst m ρ c]
  show StableHlo.after hostOps2 (W4 m ρ c) (Proc.devRef .tc main_v25) = _
  after_results
  generalize W4 m ρ c (Proc.devRef .tc main_v15) = x
  generalize W4 m ρ c (Proc.devRef .tc main_v1) = s
  generalize W4 m ρ c (Proc.devRef .tc main_v3) = d
  rfl

/-- The second graph layer. -/
abbrev x2 : Mat 50000 128 :=
  Gin (x1 m c) (Agg (x1 m c) (srcOf (m ((c : Thread nD τ).loc main_arg1))) (dstOf (m ((c : Thread nD τ).loc main_arg1))))
    (m ((c : Thread nD τ).loc main_arg8)) (m ((c : Thread nD τ).loc main_arg9))
    (m ((c : Thread nD τ).loc main_arg10)) (m ((c : Thread nD τ).loc main_arg11))

theorem W6_x2 : W6 m ρ c (Proc.devRef .tc main_v26) = x2 m c := by
  refine (W6_arr m ρ c 6).trans ((GinRegion2.final (V5 m ρ) c).trans ?_)
  show Gin (W5 m ρ c (Proc.devRef .tc main_v15)) (W5 m ρ c (Proc.devRef .tc main_v25))
    (W5 m ρ c (Proc.devRef .tc main_arg8)) (W5 m ρ c (Proc.devRef .tc main_arg9))
    (W5 m ρ c (Proc.devRef .tc main_arg10)) (W5 m ρ c (Proc.devRef .tc main_arg11)) = _
  rw [W5_x1 m ρ c, W5_agg m ρ c,
    W5_arg m ρ c main_arg8 (by not_written hostOps0) (by not_written hostOps1) (by not_written hostOps2) (by decide) (by decide),
    W5_arg m ρ c main_arg9 (by not_written hostOps0) (by not_written hostOps1) (by not_written hostOps2) (by decide) (by decide),
    W5_arg m ρ c main_arg10 (by not_written hostOps0) (by not_written hostOps1) (by not_written hostOps2) (by decide) (by decide),
    W5_arg m ρ c main_arg11 (by not_written hostOps0) (by not_written hostOps1) (by not_written hostOps2) (by decide) (by decide)]

/-! ## The fourth launch and the closing host stretch: the tail projection, normalised -/

theorem W6_arg (b : Ref sig .tc) (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (h2 : ∀ op ∈ (hostOps2 : List (HloOp τ sig (Elt Ideal))), Proc.devRef .tc b ∉ op.writes)
    (hs0 : ∀ w, Pipeline.arrRef spec0 w ≠ b) (hs1 : ∀ w, Pipeline.arrRef spec1 w ≠ b) (hs2 : ∀ w, Pipeline.arrRef spec2 w ≠ b) :
    W6 m ρ c (Proc.devRef .tc b) = m ((c : Thread nD τ).loc b) :=
  (W6_of_ne m ρ c b hs2).trans (W5_arg m ρ c b h0 h1 h2 hs0 hs1)

/-- The tail projection of the second graph layer. -/
abbrev x3 : Mat 50000 1 :=
  Tail (x2 m c) (m ((c : Thread nD τ).loc main_arg12)) (m ((c : Thread nD τ).loc main_arg13))

theorem W7_x3 : W7 m ρ c (Proc.devRef .tc main_v27) = x3 m c := by
  refine (W7_arr m ρ c 3).trans ((TailRegion.final (V6 m ρ) c).trans ?_)
  show Tail (W6 m ρ c (Proc.devRef .tc main_v26)) (W6 m ρ c (Proc.devRef .tc main_arg12)) (W6 m ρ c (Proc.devRef .tc main_arg13)) = _
  rw [W6_x2 m ρ c,
    W6_arg m ρ c main_arg12 (by not_written hostOps0) (by not_written hostOps1) (by not_written hostOps2) (by decide) (by decide) (by decide),
    W6_arg m ρ c main_arg13 (by not_written hostOps0) (by not_written hostOps1) (by not_written hostOps2) (by decide) (by decide) (by decide)]

theorem W7_arg (b : Ref sig .tc) (h0 : ∀ op ∈ (hostOps0 : List (HloOp τ sig (Elt Ideal))), Proc.devRef .tc b ∉ op.writes)
    (h1 : ∀ op ∈ (hostOps1 : List (HloOp τ sig (Elt Ideal))), Proc.devRef .tc b ∉ op.writes)
    (h2 : ∀ op ∈ (hostOps2 : List (HloOp τ sig (Elt Ideal))), Proc.devRef .tc b ∉ op.writes)
    (hs0 : ∀ w, Pipeline.arrRef spec0 w ≠ b) (hs1 : ∀ w, Pipeline.arrRef spec1 w ≠ b) (hs2 : ∀ w, Pipeline.arrRef spec2 w ≠ b)
    (hs3 : ∀ w, Pipeline.arrRef spec3 w ≠ b) :
    W7 m ρ c (Proc.devRef .tc b) = m ((c : Thread nD τ).loc b) :=
  (W7_of_ne m ρ c b hs3).trans (W6_arg m ρ c b h0 h1 h2 hs0 hs1 hs2)

/-- THE RESULT: the closing host stretch normalises the tail projection; the whole is the network of the arguments. -/
theorem result_eq : W8 m ρ c (Proc.devRef .tc main_v51)
    = Net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) := by
  show _ = Norm (x3 m c) (m ((c : Thread nD τ).loc main_arg14)) (m ((c : Thread nD τ).loc main_arg15))
  rw [← W7_x3 m ρ c,
    ← W7_arg m ρ c main_arg14 (by not_written hostOps0) (by not_written hostOps1) (by not_written hostOps2) (by decide) (by decide) (by decide) (by decide),
    ← W7_arg m ρ c main_arg15 (by not_written hostOps0) (by not_written hostOps1) (by not_written hostOps2) (by decide) (by decide) (by decide) (by decide)]
  show StableHlo.after hostOps4 (W7 m ρ c) (Proc.devRef .tc main_v51) = _
  after_results_simp
  generalize W7 m ρ c (Proc.devRef .tc main_v27) = z
  generalize W7 m ρ c (Proc.devRef .tc main_arg14) = g
  generalize W7 m ρ c (Proc.devRef .tc main_arg15) = b
  rfl

end Cert.KernelIdeal.Fold

end
-- ==== Proof.RefNet.lean ====
/-
  The reference program, read against the specification.

  The reference computes, on whole matrices: a head layer relu (feature · W + b); twice, an aggregation over the edges
  followed by a two-layer perceptron relu ((x + agg x) · W1 + b1) · W2 + b2; a projection to one column; and the batch
  normalisation of that column over the nodes. Each stage is matched with the specification's name for it.

  The dense layers are row-local: row r of x · W + b is (row r of x) · W + b, and the maximum with the zero constant is
  the entrywise maximum with 0 of every row, so each dense stage equals the specification's row-by-row layer, with the
  same sums and maxima of the same extended reals term by term and no finiteness used. The aggregation (wrap the
  negative source words, gather the rows at the sources, add them into the zero matrix at the targets) and the
  normalisation (mean, biased variance, reciprocal square root, scale and shift) are the same compositions of the same
  whole-array operations on both sides, with the same literals; those two equations hold by unfolding the names.
-/
import proofs.«128205_j12953621365187_2_alg».proof.Proof.Gen.ReferenceIdeal.Read
import proofs.«128205_j12953621365187_2_alg».proof.Proof.Spec
import proofs.«128205_j12953621365187_2_alg».proof.Proof.LibHostDenseRows

noncomputable section

namespace Cert.ReferenceIdeal.RefNet

open Cert.ReferenceIdeal Cert.ReferenceIdeal.Gen Cert.ReferenceIdeal.Read Idealize.ShloMosaic Idealize.ShloMosaic.TcCoe Idealize.SL.Sem
open Idealize.ShloMosaic.ValueIdx Cert.GinSpec Cert.LibDenseRows Cert.LibHostDenseRows

/-! ## The row-local stages -/

/-- The head stage: the whole-matrix product plus the broadcast bias, then the maximum with the zero constant, is
    relu (x · W + b) row by row. -/
theorem head_eq (x0 : (⟨S50000x512, .f32⟩ : BufTy).Contents (Elt Ideal)) (x2 : (⟨S512x128, .f32⟩ : BufTy).Contents (Elt Ideal)) (x3 : (⟨S128, .f32⟩ : BufTy).Contents (Elt Ideal)) :
    val_main_v8 (F := Ideal) x0 x2 x3 = Head x0 x2 x3 := by
  unfold val_main_v8 val_main_v7 val_main_v6 val_main_v5 val_main_v4 val_main_call0_v0 val_main_call0_cst
  show _ = ofRows fun r => relu (rows (denseA x0 x2 x3) r)
  refine eq_ofRows fun r => ?_
  exact (rows_max_zero_const _ bcast_S_S50000x128 r).trans
    (congrArg relu (rows_hostDense dot_S50000x512_S512x128_S50000x128_1_0_0_1_n_n rfl none x0 x2 x3
      bcast_S128_S1x128_1 bcast_S1x128_S50000x128_0_1 r))

/-- A two-layer perceptron on the sum of two whole matrices, as the host spells it, is the specification's layer: at
    row r the inner sum is the entrywise sum of the two rows, each product plus bias is `dense` of the row, and the
    maximum with the zero constant is `relu` of the row. -/
theorem gin_rows (y a : FVec Ideal S50000x128 .f32) (W1 : FVec Ideal S128x128 .f32) (b1 : FVec Ideal S128 .f32)
    (W2 : FVec Ideal S128x128 .f32) (b2 : FVec Ideal S128 .f32) :
    addf (F := Ideal)
        (Host.dotGeneral (F := Ideal) dot_S50000x128_S128x128_S50000x128_1_0_0_1_n_n none
          (maximumf (F := Ideal)
            (addf (F := Ideal) (Host.dotGeneral (F := Ideal) dot_S50000x128_S128x128_S50000x128_1_0_0_1_n_n none (addf (F := Ideal) y a) W1)
              (broadcastInDim S50000x128 ![0, 1] bcast_S1x128_S50000x128_0_1 (broadcastInDim S1x128 ![1] bcast_S128_S1x128_1 b1)))
            (broadcastInDim S50000x128 ![] bcast_S_S50000x128 (constant (F := Ideal) S_ .f32 0x00000000#32)))
          W2)
        (broadcastInDim S50000x128 ![0, 1] bcast_S1x128_S50000x128_0_1 (broadcastInDim S1x128 ![1] bcast_S128_S1x128_1 b2))
      = Gin y a W1 b1 W2 b2 := by
  show _ = ofRows fun r => dense (rows W2) (vec b2) (rows (reluA (denseA (addA y a) W1 b1)) r)
  refine eq_ofRows fun r => ?_
  refine (rows_hostDense dot_S50000x128_S128x128_S50000x128_1_0_0_1_n_n rfl none _ W2 b2 bcast_S128_S1x128_1 bcast_S1x128_S50000x128_0_1 r).trans ?_
  refine congrArg (dense (rows W2) (vec b2)) ?_
  refine (rows_max_zero_const _ bcast_S_S50000x128 r).trans ?_
  refine congrArg relu ?_
  exact rows_hostDense dot_S50000x128_S128x128_S50000x128_1_0_0_1_n_n rfl none (addf (F := Ideal) y a) W1 b1 bcast_S128_S1x128_1 bcast_S1x128_S50000x128_0_1 r

/-- The first perceptron stage, over the head stage and its aggregation. -/
theorem gin1_eq (x0 : (⟨S50000x512, .f32⟩ : BufTy).Contents (Elt Ideal)) (x1 : (⟨S2x600000, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v28 (F := Ideal) x0 x1 x2 x3 x4 x5 x6 x7 = Gin (val_main_v8 (F := Ideal) x0 x2 x3) (val_main_v18 (F := Ideal) x0 x1 x2 x3) x4 x5 x6 x7 := by
  unfold val_main_v28 val_main_v27 val_main_v26 val_main_v25 val_main_v24 val_main_call1_v0 val_main_call1_cst
    val_main_v23 val_main_v22 val_main_v21 val_main_v20 val_main_v19
  exact gin_rows _ _ x4 x5 x6 x7

/-- The second perceptron stage, over the first one and its aggregation. -/
theorem gin2_eq (x0 : (⟨S50000x512, .f32⟩ : BufTy).Contents (Elt Ideal)) (x1 : (⟨S2x600000, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) :
    val_main_v48 (F := Ideal) x0 x1 x2 x3 x4 x5 x6 x7 x8 x9 x10 x11 = Gin (val_main_v28 (F := Ideal) x0 x1 x2 x3 x4 x5 x6 x7) (val_main_v38 (F := Ideal) x0 x1 x2 x3 x4 x5 x6 x7) x8 x9 x10 x11 := by
  unfold val_main_v48 val_main_v47 val_main_v46 val_main_v45 val_main_v44 val_main_call2_v0 val_main_call2_cst
    val_main_v43 val_main_v42 val_main_v41 val_main_v40 val_main_v39
  exact gin_rows _ _ x8 x9 x10 x11

/-- The projection to one column is x · W + b row by row. -/
theorem tail_eq (x0 : (⟨S50000x512, .f32⟩ : BufTy).Contents (Elt Ideal)) (x1 : (⟨S2x600000, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x1, .f32⟩ : BufTy).Contents (Elt Ideal)) (x13 : (⟨S1, .f32⟩ : BufTy).Contents (Elt Ideal)) :
    val_main_v52 (F := Ideal) x0 x1 x2 x3 x4 x5 x6 x7 x8 x9 x10 x11 x12 x13 = Tail (val_main_v48 (F := Ideal) x0 x1 x2 x3 x4 x5 x6 x7 x8 x9 x10 x11) x12 x13 := by
  unfold val_main_v52 val_main_v51 val_main_v50 val_main_v49
  generalize val_main_v48 (F := Ideal) x0 x1 x2 x3 x4 x5 x6 x7 x8 x9 x10 x11 = y
  show _ = ofRows fun r => dense (rows x12) (vec x13) (rows y r)
  refine eq_ofRows fun r => ?_
  exact rows_hostDense dot_S50000x128_S128x1_S50000x1_1_0_0_1_n_n rfl none y x12 x13 bcast_S1_S1x1_1 bcast_S1x1_S50000x1_0_1 r

/-! ## The aggregation and the normalisation: the same whole-array operations on both sides -/

/-- The first aggregation: the reference wraps the source row of the edge list, gathers the rows of the head stage
    there and adds them into the zero matrix at the target row, which is `Agg` by name. -/
theorem agg1_eq (x0 : (⟨S50000x512, .f32⟩ : BufTy).Contents (Elt Ideal)) (x1 : (⟨S2x600000, .i32⟩ : BufTy).Contents (Elt Ideal)) (x2 : (⟨S512x128, .f32⟩ : BufTy).Contents (Elt Ideal)) (x3 : (⟨S128, .f32⟩ : BufTy).Contents (Elt Ideal)) :
    val_main_v18 (F := Ideal) x0 x1 x2 x3 = Agg (val_main_v8 (F := Ideal) x0 x2 x3) (srcOf x1) (dstOf x1) := by
  unfold val_main_v18 val_main_v15
  generalize val_main_v8 (F := Ideal) x0 x2 x3 = y
  unfold val_main_v17 val_main_v16 val_main_cst val_main_v14 val_main_v13 val_main_v12 val_main_v11 val_main_c_0
    val_main_v10 val_main_v9 val_main_c val_main_v3 val_main_v2 val_main_v1 val_main_v0
  unfold Agg srcOf dstOf
  rfl

/-- The second aggregation: the same operations over the first perceptron stage. -/
theorem agg2_eq (x0 : (⟨S50000x512, .f32⟩ : BufTy).Contents (Elt Ideal)) (x1 : (⟨S2x600000, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v38 (F := Ideal) x0 x1 x2 x3 x4 x5 x6 x7 = Agg (val_main_v28 (F := Ideal) x0 x1 x2 x3 x4 x5 x6 x7) (srcOf x1) (dstOf x1) := by
  unfold val_main_v38 val_main_v35
  generalize val_main_v28 (F := Ideal) x0 x1 x2 x3 x4 x5 x6 x7 = y
  unfold val_main_v37 val_main_v36 val_main_cst_3 val_main_v34 val_main_v33 val_main_v32 val_main_v31 val_main_c_2
    val_main_v30 val_main_v29 val_main_c_1 val_main_v3 val_main_v2 val_main_v1 val_main_v0
  unfold Agg srcOf dstOf
  rfl

/-- The normalisation of the projected column: the mean is broadcast twice (once for the variance, once for the
    centred column), as the specification spells it too. -/
theorem norm_eq (x0 : (⟨S50000x512, .f32⟩ : BufTy).Contents (Elt Ideal)) (x1 : (⟨S2x600000, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x1, .f32⟩ : BufTy).Contents (Elt Ideal)) (x13 x14 x15 : (⟨S1, .f32⟩ : BufTy).Contents (Elt Ideal)) :
    val_main_v76 (F := Ideal) x0 x1 x2 x3 x4 x5 x6 x7 x8 x9 x10 x11 x12 x13 x14 x15 = Cert.GinSpec.Norm (val_main_v52 (F := Ideal) x0 x1 x2 x3 x4 x5 x6 x7 x8 x9 x10 x11 x12 x13) x14 x15 := by
  unfold val_main_v76 val_main_v75 val_main_v74 val_main_v73 val_main_v72 val_main_v71 val_main_v70 val_main_v69
    val_main_v68 val_main_v67 val_main_v66 val_main_cst_8 val_main_v65 val_main_v64 val_main_v63 val_main_v62
    val_main_cst_7 val_main_v61 val_main_v60 val_main_cst_6 val_main_v59 val_main_v58 val_main_v57 val_main_v56
    val_main_v55 val_main_cst_5 val_main_v54 val_main_v53 val_main_cst_4
  generalize val_main_v52 (F := Ideal) x0 x1 x2 x3 x4 x5 x6 x7 x8 x9 x10 x11 x12 x13 = z
  unfold Cert.GinSpec.Norm Cert.GinSpec.meanCol
  rfl

/-! ## The whole reference -/

/-- THE REFERENCE computes the network of the specification. -/
theorem ref_eq (x0 : (⟨S50000x512, .f32⟩ : BufTy).Contents (Elt Ideal)) (x1 : (⟨S2x600000, .i32⟩ : BufTy).Contents (Elt Ideal)) (x2 : (⟨S512x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x1, .f32⟩ : BufTy).Contents (Elt Ideal)) (x13 x14 x15 : (⟨S1, .f32⟩ : BufTy).Contents (Elt Ideal)) :
    Cert.ReferenceIdeal.Read.val_main_v76 (F := Ideal) x0 x1 x2 x3 x4 x5 x6 x7 x8 x9 x10 x11 x12 x13 x14 x15
      = Cert.GinSpec.Net x0 x1 x2 x3 x4 x5 x6 x7 x8 x9 x10 x11 x12 x13 x14 x15 := by
  rw [norm_eq, tail_eq, gin2_eq, agg2_eq, gin1_eq, agg1_eq, head_eq]
  rfl

end Cert.ReferenceIdeal.RefNet

end
-- ==== Proof.lean ====
/-
  The certificate of a graph network's node scores: a Pallas implementation against its jnp reference, on the extended reals.

  Both programs compute, from a feature matrix [50000, 512], an edge list [2, 600000] and the layers' weights,
      x0 = relu (feature · headW + headb),   x1 = layer (x0, agg x0),   x2 = layer (x1, agg x1),   z = x2 · tailW + tailb,
      out = (z - mean z) · rsqrt (var z + ε) · γ + β,
  where layer (x, a) = relu ((x + a) · W + b) · W' + b' and agg x sums into every node the rows of x at the sources of the
  edges ending there (`Cert.GinSpec.Net`, Proof/Spec.lean). The kernel program computes the four dense stages in four
  launches, 2000 rows at a time, and the aggregation and the normalisation by the reference's own host operations; the
  reference computes everything on whole matrices. A dense layer is row-local, so a block of 2000 rows of the layer is the
  layer of the block: each launch leaves in its output array exactly the whole-matrix layer (Proof/HeadRegion.lean,
  GinRegion1.lean, GinRegion2.lean, TailRegion.lean), the fold of the program's stages over the launch memory is `Net` of the
  arguments (Proof/KernelNet.lean), and so is the reference's composed term (Proof/RefNet.lean). Row by row the two sides are the
  same sums, maxima and quotients of the same extended reals in the same order, so the precondition (finite inputs) is never
  opened: the equation holds for every input. A change of float format is the identity on the extended reals, so the
  kernel's rounding of the matrix products' operands disappears; the idealization rewrote nothing, so `preserves` is `True`.
-/
import proofs.«128205_j12953621365187_2_alg».proof.Defs
import proofs.«128205_j12953621365187_2_alg».proof.Proof.Gen.Kernel
import proofs.«128205_j12953621365187_2_alg».proof.Proof.Gen.KernelIdeal
import proofs.«128205_j12953621365187_2_alg».proof.Proof.Gen.ReferenceIdeal
import proofs.«128205_j12953621365187_2_alg».proof.Proof.Gen.ReferenceIdeal.Run
import proofs.«128205_j12953621365187_2_alg».proof.Proof.Gen.ReferenceIdeal.Read
import proofs.«128205_j12953621365187_2_alg».proof.Proof.Gen.Pre_finite_inputs
import proofs.«128205_j12953621365187_2_alg».proof.Proof.KernelFrameP
import proofs.«128205_j12953621365187_2_alg».proof.Proof.KernelIdealFrameP
import proofs.«128205_j12953621365187_2_alg».proof.Proof.KernelResult
import proofs.«128205_j12953621365187_2_alg».proof.Proof.KernelNet
import proofs.«128205_j12953621365187_2_alg».proof.Proof.RefNet
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.GenP.frame m ρ

/-- The idealized kernel program runs and keeps its arguments. -/
theorem frame_ki : Cert.frame_KernelIdeal := fun m ρ _ => Cert.KernelIdeal.GenP.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Cert.GinSpec.Net
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Fold.result_eq m ρ c), (h c).2⟩)
      (Cert.KernelIdeal.Result.run_result (F := Ideal) m ρ)
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  rw [Cert.ReferenceIdeal.Read.val_main_v76_eq, Cert.ReferenceIdeal.RefNet.ref_eq,
    e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
